-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x784 : Shape := ⟨2, ![512, 784]⟩
abbrev S8192 : Shape := ⟨1, ![8192]⟩
abbrev S784x262144 : Shape := ⟨2, ![784, 262144]⟩
abbrev S262144 : Shape := ⟨1, ![262144]⟩
abbrev S10x262144 : Shape := ⟨2, ![10, 262144]⟩
abbrev S10 : Shape := ⟨1, ![10]⟩
abbrev S_ : Shape := ⟨0, ![]⟩

class Facts : Prop where
  bcast_S_S512x784 : S_.BroadcastsInDim S512x784 (![] : Fin 0 → Fin S512x784.rank)
  reducesTo_S512x784_S_d0_1 : S512x784.ReducesTo [0, 1] S_
  h_S_ : 0 < S_.numel
  bcast_S_S784x262144 : S_.BroadcastsInDim S784x262144 (![] : Fin 0 → Fin S784x262144.rank)
  reducesTo_S784x262144_S_d0_1 : S784x262144.ReducesTo [0, 1] S_
  bcast_S_S262144 : S_.BroadcastsInDim S262144 (![] : Fin 0 → Fin S262144.rank)
  reducesTo_S262144_S_d0 : S262144.ReducesTo [0] S_
  bcast_S_S10x262144 : S_.BroadcastsInDim S10x262144 (![] : Fin 0 → Fin S10x262144.rank)
  reducesTo_S10x262144_S_d0_1 : S10x262144.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S10 .f32) (main_v13 : IVec S_ 1) (main_v16 : IVec S10x262144 1) : IVec S_ 1 :=
  let main_c_5 : IVec S_ 1 := constantI S_ 1 1#1
  let main_v17 : IVec S_ 1 := (fun x v => Host.reduce IntOp.andi x v reducesTo_S10x262144_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S512x784 .f32) (main_arg1 : IVec S8192 32) (main_arg2 : FVec F S784x262144 .f32) (main_arg3 : FVec F S262144 .f32) (main_arg4 : FVec F S10x262144 .f32) (main_arg5 : FVec F S10 .f32) : IVec S_ 1 :=
  let main_v0 : FVec F S512x784 .f32 := Host.absf main_arg0
  let main_cst : FVec F S_ .f32 := constant S_ .f32 0x7F800000#32
  let main_v1 : FVec F S512x784 .f32 := broadcastInDim S512x784 ![] bcast_S_S512x784 main_cst
  let main_v2 : IVec S512x784 1 := cmpf .olt main_v0 main_v1
  let main_c : IVec S_ 1 := constantI S_ 1 1#1
  let main_v3 : IVec S_ 1 := (fun x v => Host.reduce IntOp.andi x v reducesTo_S512x784_S_d0_1 h_S_) main_v2 main_c
  let main_v4 : FVec F S784x262144 .f32 := Host.absf main_arg2
  let main_cst_0 : FVec F S_ .f32 := constant S_ .f32 0x7F800000#32
  let main_v5 : FVec F S784x262144 .f32 := broadcastInDim S784x262144 ![] bcast_S_S784x262144 main_cst_0
  let main_v6 : IVec S784x262144 1 := cmpf .olt main_v4 main_v5
  let main_c_1 : IVec S_ 1 := constantI S_ 1 1#1
  let main_v7 : IVec S_ 1 := (fun x v => Host.reduce IntOp.andi x v reducesTo_S784x262144_S_d0_1 h_S_) main_v6 main_c_1
  let main_v8 : IVec S_ 1 := andi main_v3 main_v7
  let main_v9 : FVec F S262144 .f32 := Host.absf main_arg3
  let main_cst_2 : FVec F S_ .f32 := constant S_ .f32 0x7F800000#32
  let main_v10 : FVec F S262144 .f32 := broadcastInDim S262144 ![] bcast_S_S262144 main_cst_2
  let main_v11 : IVec S262144 1 := cmpf .olt main_v9 main_v10
  let main_c_3 : IVec S_ 1 := constantI S_ 1 1#1
  let main_v12 : IVec S_ 1 := (fun x v => Host.reduce IntOp.andi x v reducesTo_S262144_S_d0 h_S_) main_v11 main_c_3
  let main_v13 : IVec S_ 1 := andi main_v8 main_v12
  let main_v14 : FVec F S10x262144 .f32 := Host.absf main_arg4
  let main_cst_4 : FVec F S_ .f32 := constant S_ .f32 0x7F800000#32
  let main_v15 : FVec F S10x262144 .f32 := broadcastInDim S10x262144 ![] bcast_S_S10x262144 main_cst_4
  let main_v16 : IVec S10x262144 1 := cmpf .olt main_v14 main_v15
  fn_part1 (F := F) main_arg5 main_v13 main_v16
-- ==== Kernel.lean ====
abbrev S512x784 : Shape := ⟨2, ![512, 784]⟩
abbrev S8192 : Shape := ⟨1, ![8192]⟩
abbrev S784x262144 : Shape := ⟨2, ![784, 262144]⟩
abbrev S262144 : Shape := ⟨1, ![262144]⟩
abbrev S10x262144 : Shape := ⟨2, ![10, 262144]⟩
abbrev S10 : Shape := ⟨1, ![10]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S784x8192 : Shape := ⟨2, ![784, 8192]⟩
abbrev S1x8192 : Shape := ⟨2, ![1, 8192]⟩
abbrev S10x8192 : Shape := ⟨2, ![10, 8192]⟩
abbrev S8192x10 : Shape := ⟨2, ![8192, 10]⟩
abbrev S2x512x10 : Shape := ⟨3, ![2, 512, 10]⟩
abbrev S784x1024 : Shape := ⟨2, ![784, 1024]⟩
abbrev S1x1024 : Shape := ⟨2, ![1, 1024]⟩
abbrev S1024x10 : Shape := ⟨2, ![1024, 10]⟩
abbrev S1x512x10 : Shape := ⟨3, ![1, 512, 10]⟩
abbrev S512x10 : Shape := ⟨2, ![512, 10]⟩
abbrev S512x1024 : Shape := ⟨2, ![512, 1024]⟩
abbrev S1x10 : Shape := ⟨2, ![1, 10]⟩

abbrev nBuf : Space → Nat
  | .hbm => 85
  | .vmem => 10
  | .smem => 0
  | _ => 0

abbrev bufTy : (tb : Table) → Fin (tcTables nBuf tb) → BufTy
  | .hbm, ⟨0, _⟩ => ⟨S512x784, .f32⟩
  | .hbm, ⟨1, _⟩ => ⟨S8192, .i32⟩
  | .hbm, ⟨2, _⟩ => ⟨S784x262144, .f32⟩
  | .hbm, ⟨3, _⟩ => ⟨S262144, .f32⟩
  | .hbm, ⟨4, _⟩ => ⟨S10x262144, .f32⟩
  | .hbm, ⟨5, _⟩ => ⟨S10, .f32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S1, .i32⟩
  | .hbm, ⟨15, _⟩ => ⟨S_, .i32⟩
  | .hbm, ⟨16, _⟩ => ⟨S8192x1, .i32⟩
  | .hbm, ⟨17, _⟩ => ⟨S8192x1, .i1⟩
  | .hbm, ⟨18, _⟩ => ⟨S1x1, .i32⟩
  | .hbm, ⟨19, _⟩ => ⟨S8192x1, .i32⟩
  | .hbm, ⟨20, _⟩ => ⟨S8192x1, .i1⟩
  | .hbm, ⟨21, _⟩ => ⟨S8192x1, .i1⟩
  | .hbm, ⟨22, _⟩ => ⟨S_, .i1⟩
  | .hbm, ⟨23, _⟩ => ⟨S8192, .i1⟩
  | .hbm, ⟨24, _⟩ => ⟨S784x8192, .f32⟩
  | .hbm, ⟨25, _⟩ => ⟨S784x8192, .i1⟩
  | .hbm, ⟨26, _⟩ => ⟨S_, .f32⟩
  | .hbm, ⟨27, _⟩ => ⟨S784x8192, .f32⟩
  | .hbm, ⟨28, _⟩ => ⟨S784x8192, .f32⟩
  | .hbm, ⟨29, _⟩ => ⟨S784x8192, .bf16⟩
  | .hbm, ⟨30, _⟩ => ⟨S_, .i32⟩
  | .hbm, ⟨31, _⟩ => ⟨S8192, .i32⟩
  | .hbm, ⟨32, _⟩ => ⟨S8192, .i1⟩
  | .hbm, ⟨33, _⟩ => ⟨S_, .i32⟩
  | .hbm, ⟨34, _⟩ => ⟨S8192, .i32⟩
  | .hbm, ⟨35, _⟩ => ⟨S8192, .i32⟩
  | .hbm, ⟨36, _⟩ => ⟨S8192, .i32⟩
  | .hbm, ⟨37, _⟩ => ⟨S8192x1, .i32⟩
  | .hbm, ⟨38, _⟩ => ⟨S1, .i32⟩
  | .hbm, ⟨39, _⟩ => ⟨S_, .i32⟩
  | .hbm, ⟨40, _⟩ => ⟨S8192x1, .i32⟩
  | .hbm, ⟨41, _⟩ => ⟨S8192x1, .i1⟩
  | .hbm, ⟨42, _⟩ => ⟨S1x1, .i32⟩
  | .hbm, ⟨43, _⟩ => ⟨S8192x1, .i32⟩
  | .hbm, ⟨44, _⟩ => ⟨S8192x1, .i1⟩
  | .hbm, ⟨45, _⟩ => ⟨S8192x1, .i1⟩
  | .hbm, ⟨46, _⟩ => ⟨S_, .i1⟩
  | .hbm, ⟨47, _⟩ => ⟨S8192, .i1⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S1x8192, .f32⟩
  | .hbm, ⟨53, _⟩ => ⟨S_, .i32⟩
  | .hbm, ⟨54, _⟩ => ⟨S8192, .i32⟩
  | .hbm, ⟨55, _⟩ => ⟨S8192, .i1⟩
  | .hbm, ⟨56, _⟩ => ⟨S_, .i32⟩
  | .hbm, ⟨57, _⟩ => ⟨S8192, .i32⟩
  | .hbm, ⟨58, _⟩ => ⟨S8192, .i32⟩
  | .hbm, ⟨59, _⟩ => ⟨S8192, .i32⟩
  | .hbm, ⟨60, _⟩ => ⟨S8192x1, .i32⟩
  | .hbm, ⟨61, _⟩ => ⟨S1, .i32⟩
  | .hbm, ⟨62, _⟩ => ⟨S_, .i32⟩
  | .hbm, ⟨63, _⟩ => ⟨S8192x1, .i32⟩
  | .hbm, ⟨64, _⟩ => ⟨S8192x1, .i1⟩
  | .hbm, ⟨65, _⟩ => ⟨S1x1, .i32⟩
  | .hbm, ⟨66, _⟩ => ⟨S8192x1, .i32⟩
  | .hbm, ⟨67, _⟩ => ⟨S8192x1, .i1⟩
  | .hbm, ⟨68, _⟩ => ⟨S8192x1, .i1⟩
  | .hbm, ⟨69, _⟩ => ⟨S_, .i1⟩
  | .hbm, ⟨70, _⟩ => ⟨S8192, .i1⟩
  | .hbm, ⟨71, _⟩ => ⟨S10x8192, .f32⟩
  | .hbm, ⟨72, _⟩ => ⟨S10x8192, .i1⟩
  | .hbm, ⟨73, _⟩ => ⟨S_, .f32⟩
  | .hbm, ⟨74, _⟩ => ⟨S10x8192, .f32⟩
  | .hbm, ⟨75, _⟩ => ⟨S10x8192, .f32⟩
  | .hbm, ⟨76, _⟩ => ⟨S8192x10, .f32⟩
  | .hbm, ⟨77, _⟩ => ⟨S8192x10, .bf16⟩
  | .hbm, ⟨78, _⟩ => ⟨S512x784, .bf16⟩
  | .hbm, ⟨79, _⟩ => ⟨S2x512x10, .f32⟩
  | .hbm, ⟨80, _⟩ => ⟨S_, .f32⟩
  | .hbm, ⟨81, _⟩ => ⟨S512x10, .f32⟩
  | .hbm, ⟨82, _⟩ => ⟨S1x10, .f32⟩
  | .hbm, ⟨83, _⟩ => ⟨S512x10, .f32⟩
  | .hbm, ⟨84, _⟩ => ⟨S512x10, .f32⟩
  | .local _ .vmem, ⟨0, _⟩ => ⟨S512x784, .bf16⟩
  | .local _ .vmem, ⟨1, _⟩ => ⟨S784x1024, .bf16⟩
  | .local _ .vmem, ⟨2, _⟩ => ⟨S784x1024, .bf16⟩
  | .local _ .vmem, ⟨3, _⟩ => ⟨S1x1024, .f32⟩
  | .local _ .vmem, ⟨4, _⟩ => ⟨S1x1024, .f32⟩
  | .local _ .vmem, ⟨5, _⟩ => ⟨S1024x10, .bf16⟩
  | .local _ .vmem, ⟨6, _⟩ => ⟨S1024x10, .bf16⟩
  | .local _ .vmem, ⟨7, _⟩ => ⟨S1x512x10, .f32⟩
  | .local _ .vmem, ⟨8, _⟩ => ⟨S1x512x10, .f32⟩
  | .local _ .vmem, ⟨9, _⟩ => ⟨S512x10, .f32⟩
  | _, _ => ⟨S512x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_cst : Ref sig .tc := ⟨.hbm, 49, rfl⟩
abbrev main_call1_v14 : Ref sig .tc := ⟨.hbm, 50, rfl⟩
abbrev main_v2 : Ref sig .tc := ⟨.hbm, 51, rfl⟩
abbrev main_v3 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_c_1 : Ref sig .tc := ⟨.hbm, 61, rfl⟩
abbrev main_call2_c_2 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_3 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_call2_cst : Ref sig .tc := ⟨.hbm, 73, rfl⟩
abbrev main_call2_v15 : Ref sig .tc := ⟨.hbm, 74, rfl⟩
abbrev main_v4 : Ref sig .tc := ⟨.hbm, 75, rfl⟩
abbrev main_v5 : Ref sig .tc := ⟨.hbm, 76, rfl⟩
abbrev main_v6 : Ref sig .tc := ⟨.hbm, 77, rfl⟩
abbrev main_v7 : Ref sig .tc := ⟨.hbm, 78, rfl⟩
abbrev main_v8 : Ref sig .tc := ⟨.hbm, 79, rfl⟩
abbrev main_cst : Ref sig .tc := ⟨.hbm, 80, rfl⟩
abbrev main_v9 : Ref sig .tc := ⟨.hbm, 81, rfl⟩
abbrev main_v10 : Ref sig .tc := ⟨.hbm, 82, rfl⟩
abbrev main_v11 : Ref sig .tc := ⟨.hbm, 83, rfl⟩
abbrev main_v12 : Ref sig .tc := ⟨.hbm, 84, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x784 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S784x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x10 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x10 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S784x8192_1 : S8192.BroadcastsInDim S784x8192 (![1] : Fin 1 → Fin S784x8192.rank)
  bcast_S_S784x8192 : S_.BroadcastsInDim S784x8192 (![] : Fin 0 → Fin S784x8192.rank)
  bitsLt_bf16_f32 : FTy.bits .bf16 < FTy.bits .f32
  shapeCasts_S8192_S1x8192 : S8192.ShapeCasts S1x8192
  bcast_S8192_S10x8192_1 : S8192.BroadcastsInDim S10x8192 (![1] : Fin 1 → Fin S10x8192.rank)
  bcast_S_S10x8192 : S_.BroadcastsInDim S10x8192 (![] : Fin 0 → Fin S10x8192.rank)
  transposes_S10x8192_S8192x10_1_0 : S10x8192.Transposes [1, 0] S8192x10
  inb_S512x10_S512x10_0_0 : ∀ a, (![0, 0] : Fin 2 → Nat) a + S512x10.size a ≤ S512x10.size a
  h_S512x10 : 0 < S512x10.numel
  shapeCasts_S512x10_S512x10 : S512x10.ShapeCasts S512x10
  inb_S512x784_S512x784_0_0 : ∀ a, (![0, 0] : Fin 2 → Nat) a + S512x784.size a ≤ S512x784.size a
  h_S512x784 : 0 < S512x784.numel
  shapeCasts_S512x784_S512x784 : S512x784.ShapeCasts S512x784
  inb_S784x1024_S784x1024_0_0 : ∀ a, (![0, 0] : Fin 2 → Nat) a + S784x1024.size a ≤ S784x1024.size a
  h_S784x1024 : 0 < S784x1024.numel
  shapeCasts_S784x1024_S784x1024 : S784x1024.ShapeCasts S784x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x10_S1024x10_0_0 : ∀ a, (![0, 0] : Fin 2 → Nat) a + S1024x10.size a ≤ S1024x10.size a
  h_S1024x10 : 0 < S1024x10.numel
  shapeCasts_S1024x10_S1024x10 : S1024x10.ShapeCasts S1024x10
  inb_S1x512x10_S1x512x10_0_0_0 : ∀ a, (![0, 0, 0] : Fin 3 → Nat) a + S1x512x10.size a ≤ S1x512x10.size a
  h_S1x512x10 : 0 < S1x512x10.numel
  shapeCasts_S1x512x10_S512x10 : S1x512x10.ShapeCasts S512x10
  shapeCasts_S512x10_S1x512x10 : S512x10.ShapeCasts S1x512x10
  reducesTo_S2x512x10_S512x10_d0 : S2x512x10.ReducesTo [0] S512x10
  shapeCasts_S10_S1x10 : S10.ShapeCasts S1x10
  bcast_S1x10_S512x10_0_1 : S1x10.BroadcastsInDim S512x10 (![0, 1] : Fin 2 → Fin S512x10.rank)
  gather_S784x262144_S8192x1_S784x8192_0_1_n_n_1_1_7841_wf : GatherDims.WF S784x262144 S8192x1 S784x8192 [0] [1] [] [1] [] 1 ![784, 1]
  gather_S262144_S8192x1_S8192_n_0_n_n_0_1_1_wf : GatherDims.WF S262144 S8192x1 S8192 [] [0] [] [0] [] 1 ![1]
  gather_S10x262144_S8192x1_S10x8192_0_1_n_n_1_1_101_wf : GatherDims.WF S10x262144 S8192x1 S10x8192 [0] [1] [] [1] [] 1 ![10, 1]
  dot_S512x784_S784x1024_S512x1024_1_0_0_1_n_n_wf : DotDims.WF S512x784 S784x1024 S512x1024 [1] [0] [0] [1] [] []
  dot_S512x1024_S1024x10_S512x10_1_0_0_1_n_n_wf : DotDims.WF S512x1024 S1024x10 S512x10 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x784.size a ≤ S512x784.size a
  hwx0_0 : ∀ i : grid0.Coords, EltTy.bits .bf16 = 32 ∨ (Rect.block (s := S512x784) S512x784.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S784x1024.size a ≤ S784x8192.size a
  hwx0_1 : ∀ i : grid0.Coords, EltTy.bits .bf16 = 32 ∨ (Rect.block (s := S784x8192) S784x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x10.size a ≤ S8192x10.size a
  hwx0_3 : ∀ i : grid0.Coords, EltTy.bits .bf16 = 32 ∨ (Rect.block (s := S8192x10) S1024x10.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x10.size a ≤ S2x512x10.size a
  hwx0_4 : ∀ i : grid0.Coords, EltTy.bits .f32 = 32 ∨ (Rect.block (s := S2x512x10) S1x512x10.size (cc0_transform_4 i) (hinb0_4 i)).WholeWords (EltTy.packing .f32)

variable [Facts₀]

def gather_S784x262144_S8192x1_S784x8192_0_1_n_n_1_1_7841 : GatherDims S784x262144 S8192x1 S784x8192 where
  offsetDims := [0]
  collapsedSliceDims := [1]
  operandBatchingDims := []
  startIndicesBatchingDims := []
  startIndexMap := [1]
  indexVectorDim := 1
  sliceSizes := ![784, 1]
  wf := gather_S784x262144_S8192x1_S784x8192_0_1_n_n_1_1_7841_wf
def gather_S262144_S8192x1_S8192_n_0_n_n_0_1_1 : GatherDims S262144 S8192x1 S8192 where
  offsetDims := []
  collapsedSliceDims := [0]
  operandBatchingDims := []
  startIndicesBatchingDims := []
  startIndexMap := [0]
  indexVectorDim := 1
  sliceSizes := ![1]
  wf := gather_S262144_S8192x1_S8192_n_0_n_n_0_1_1_wf
def gather_S10x262144_S8192x1_S10x8192_0_1_n_n_1_1_101 : GatherDims S10x262144 S8192x1 S10x8192 where
  offsetDims := [0]
  collapsedSliceDims := [1]
  operandBatchingDims := []
  startIndicesBatchingDims := []
  startIndexMap := [1]
  indexVectorDim := 1
  sliceSizes := ![10, 1]
  wf := gather_S10x262144_S8192x1_S10x8192_0_1_n_n_1_1_101_wf
def dot_S512x784_S784x1024_S512x1024_1_0_0_1_n_n : DotDims S512x784 S784x1024 S512x1024 where
  lhsContracting := [1]
  rhsContracting := [0]
  lhsNonContracting := [0]
  rhsNonContracting := [1]
  lhsBatch := []
  rhsBatch := []
  wf := dot_S512x784_S784x1024_S512x1024_1_0_0_1_n_n_wf
def dot_S512x1024_S1024x10_S512x10_1_0_0_1_n_n : DotDims S512x1024 S1024x10 S512x10 where
  lhsContracting := [1]
  rhsContracting := [0]
  lhsNonContracting := [0]
  rhsNonContracting := [1]
  lhsBatch := []
  rhsBatch := []
  wf := dot_S512x1024_S1024x10_S512x10_1_0_0_1_n_n_wf

abbrev win0_0 : Pipeline.Window sig grid0 :=
  Pipeline.Window.ofSpec (Memref.whole main_v7) S512x784.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S784x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x10.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x512x10.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S512x784 : Shape := ⟨2, ![512, 784]⟩
abbrev S8192 : Shape := ⟨1, ![8192]⟩
abbrev S784x262144 : Shape := ⟨2, ![784, 262144]⟩
abbrev S262144 : Shape := ⟨1, ![262144]⟩
abbrev S10x262144 : Shape := ⟨2, ![10, 262144]⟩
abbrev S10 : Shape := ⟨1, ![10]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S784x8192 : Shape := ⟨2, ![784, 8192]⟩
abbrev S512x8192 : Shape := ⟨2, ![512, 8192]⟩
abbrev S1x8192 : Shape := ⟨2, ![1, 8192]⟩
abbrev S10x8192 : Shape := ⟨2, ![10, 8192]⟩
abbrev S8192x10 : Shape := ⟨2, ![8192, 10]⟩
abbrev S512x10 : Shape := ⟨2, ![512, 10]⟩
abbrev S1x10 : Shape := ⟨2, ![1, 10]⟩

abbrev nBuf : Space → Nat
  | .hbm => 86
  | .vmem => 0
  | .smem => 0
  | _ => 0

abbrev bufTy : (tb : Table) → Fin (tcTables nBuf tb) → BufTy
  | .hbm, ⟨0, _⟩ => ⟨S512x784, .f32⟩
  | .hbm, ⟨1, _⟩ => ⟨S8192, .i32⟩
  | .hbm, ⟨2, _⟩ => ⟨S784x262144, .f32⟩
  | .hbm, ⟨3, _⟩ => ⟨S262144, .f32⟩
  | .hbm, ⟨4, _⟩ => ⟨S10x262144, .f32⟩
  | .hbm, ⟨5, _⟩ => ⟨S10, .f32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S1, .i32⟩
  | .hbm, ⟨15, _⟩ => ⟨S_, .i32⟩
  | .hbm, ⟨16, _⟩ => ⟨S8192x1, .i32⟩
  | .hbm, ⟨17, _⟩ => ⟨S8192x1, .i1⟩
  | .hbm, ⟨18, _⟩ => ⟨S1x1, .i32⟩
  | .hbm, ⟨19, _⟩ => ⟨S8192x1, .i32⟩
  | .hbm, ⟨20, _⟩ => ⟨S8192x1, .i1⟩
  | .hbm, ⟨21, _⟩ => ⟨S8192x1, .i1⟩
  | .hbm, ⟨22, _⟩ => ⟨S_, .i1⟩
  | .hbm, ⟨23, _⟩ => ⟨S8192, .i1⟩
  | .hbm, ⟨24, _⟩ => ⟨S784x8192, .f32⟩
  | .hbm, ⟨25, _⟩ => ⟨S784x8192, .i1⟩
  | .hbm, ⟨26, _⟩ => ⟨S_, .f32⟩
  | .hbm, ⟨27, _⟩ => ⟨S784x8192, .f32⟩
  | .hbm, ⟨28, _⟩ => ⟨S784x8192, .f32⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S8192x1, .i32⟩
  | .hbm, ⟨37, _⟩ => ⟨S1, .i32⟩
  | .hbm, ⟨38, _⟩ => ⟨S_, .i32⟩
  | .hbm, ⟨39, _⟩ => ⟨S8192x1, .i32⟩
  | .hbm, ⟨40, _⟩ => ⟨S8192x1, .i1⟩
  | .hbm, ⟨41, _⟩ => ⟨S1x1, .i32⟩
  | .hbm, ⟨42, _⟩ => ⟨S8192x1, .i32⟩
  | .hbm, ⟨43, _⟩ => ⟨S8192x1, .i1⟩
  | .hbm, ⟨44, _⟩ => ⟨S8192x1, .i1⟩
  | .hbm, ⟨45, _⟩ => ⟨S_, .i1⟩
  | .hbm, ⟨46, _⟩ => ⟨S8192, .i1⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S512x8192, .f32⟩
  | .hbm, ⟨52, _⟩ => ⟨S1x8192, .f32⟩
  | .hbm, ⟨53, _⟩ => ⟨S512x8192, .f32⟩
  | .hbm, ⟨54, _⟩ => ⟨S512x8192, .f32⟩
  | .hbm, ⟨55, _⟩ => ⟨S_, .f32⟩
  | .hbm, ⟨56, _⟩ => ⟨S512x8192, .f32⟩
  | .hbm, ⟨57, _⟩ => ⟨S512x8192, .f32⟩
  | .hbm, ⟨58, _⟩ => ⟨S_, .i32⟩
  | .hbm, ⟨59, _⟩ => ⟨S8192, .i32⟩
  | .hbm, ⟨60, _⟩ => ⟨S8192, .i1⟩
  | .hbm, ⟨61, _⟩ => ⟨S_, .i32⟩
  | .hbm, ⟨62, _⟩ => ⟨S8192, .i32⟩
  | .hbm, ⟨63, _⟩ => ⟨S8192, .i32⟩
  | .hbm, ⟨64, _⟩ => ⟨S8192, .i32⟩
  | .hbm, ⟨65, _⟩ => ⟨S8192x1, .i32⟩
  | .hbm, ⟨66, _⟩ => ⟨S1, .i32⟩
  | .hbm, ⟨67, _⟩ => ⟨S_, .i32⟩
  | .hbm, ⟨68, _⟩ => ⟨S8192x1, .i32⟩
  | .hbm, ⟨69, _⟩ => ⟨S8192x1, .i1⟩
  | .hbm, ⟨70, _⟩ => ⟨S1x1, .i32⟩
  | .hbm, ⟨71, _⟩ => ⟨S8192x1, .i32⟩
  | .hbm, ⟨72, _⟩ => ⟨S8192x1, .i1⟩
  | .hbm, ⟨73, _⟩ => ⟨S8192x1, .i1⟩
  | .hbm, ⟨74, _⟩ => ⟨S_, .i1⟩
  | .hbm, ⟨75, _⟩ => ⟨S8192, .i1⟩
  | .hbm, ⟨76, _⟩ => ⟨S10x8192, .f32⟩
  | .hbm, ⟨77, _⟩ => ⟨S10x8192, .i1⟩
  | .hbm, ⟨78, _⟩ => ⟨S_, .f32⟩
  | .hbm, ⟨79, _⟩ => ⟨S10x8192, .f32⟩
  | .hbm, ⟨80, _⟩ => ⟨S10x8192, .f32⟩
  | .hbm, ⟨81, _⟩ => ⟨S8192x10, .f32⟩
  | .hbm, ⟨82, _⟩ => ⟨S512x10, .f32⟩
  | .hbm, ⟨83, _⟩ => ⟨S1x10, .f32⟩
  | .hbm, ⟨84, _⟩ => ⟨S512x10, .f32⟩
  | .hbm, ⟨85, _⟩ => ⟨S512x10, .f32⟩
  | _, _ => ⟨S512x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_cst : Ref sig .tc := ⟨.hbm, 48, rfl⟩
abbrev main_call1_v14 : Ref sig .tc := ⟨.hbm, 49, rfl⟩
abbrev main_v1 : Ref sig .tc := ⟨.hbm, 50, rfl⟩
abbrev main_v2 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_call2_cst : Ref sig .tc := ⟨.hbm, 55, rfl⟩
abbrev main_call2_v0 : Ref sig .tc := ⟨.hbm, 56, rfl⟩
abbrev main_v6 : Ref sig .tc := ⟨.hbm, 57, rfl⟩
abbrev main_call3_c : Ref sig .tc := ⟨.hbm, 58, rfl⟩
abbrev main_call3_v0 : Ref sig .tc := ⟨.hbm, 59, rfl⟩
abbrev main_call3_v1 : Ref sig .tc := ⟨.hbm, 60, rfl⟩
abbrev main_call3_c_0 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_call3_v5 : Ref sig .tc := ⟨.hbm, 65, rfl⟩
abbrev main_call3_c_1 : Ref sig .tc := ⟨.hbm, 66, rfl⟩
abbrev main_call3_c_2 : Ref sig .tc := ⟨.hbm, 67, rfl⟩
abbrev main_call3_v6 : Ref sig .tc := ⟨.hbm, 68, rfl⟩
abbrev main_call3_v7 : Ref sig .tc := ⟨.hbm, 69, rfl⟩
abbrev main_call3_v8 : Ref sig .tc := ⟨.hbm, 70, rfl⟩
abbrev main_call3_v9 : Ref sig .tc := ⟨.hbm, 71, rfl⟩
abbrev main_call3_v10 : Ref sig .tc := ⟨.hbm, 72, rfl⟩
abbrev main_call3_v11 : Ref sig .tc := ⟨.hbm, 73, rfl⟩
abbrev main_call3_c_3 : Ref sig .tc := ⟨.hbm, 74, rfl⟩
abbrev main_call3_v12 : Ref sig .tc := ⟨.hbm, 75, rfl⟩
abbrev main_call3_v13 : Ref sig .tc := ⟨.hbm, 76, rfl⟩
abbrev main_call3_v14 : Ref sig .tc := ⟨.hbm, 77, rfl⟩
abbrev main_call3_cst : Ref sig .tc := ⟨.hbm, 78, rfl⟩
abbrev main_call3_v15 : Ref sig .tc := ⟨.hbm, 79, rfl⟩
abbrev main_v7 : Ref sig .tc := ⟨.hbm, 80, rfl⟩
abbrev main_v8 : Ref sig .tc := ⟨.hbm, 81, rfl⟩
abbrev main_v9 : Ref sig .tc := ⟨.hbm, 82, rfl⟩
abbrev main_v10 : Ref sig .tc := ⟨.hbm, 83, rfl⟩
abbrev main_v11 : Ref sig .tc := ⟨.hbm, 84, rfl⟩
abbrev main_v12 : Ref sig .tc := ⟨.hbm, 85, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S784x8192_1 : S8192.BroadcastsInDim S784x8192 (![1] : Fin 1 → Fin S784x8192.rank)
  bcast_S_S784x8192 : S_.BroadcastsInDim S784x8192 (![] : Fin 0 → Fin S784x8192.rank)
  bcast_S8192_S1x8192_1 : S8192.BroadcastsInDim S1x8192 (![1] : Fin 1 → Fin S1x8192.rank)
  bcast_S1x8192_S512x8192_0_1 : S1x8192.BroadcastsInDim S512x8192 (![0, 1] : Fin 2 → Fin S512x8192.rank)
  bcast_S_S512x8192 : S_.BroadcastsInDim S512x8192 (![] : Fin 0 → Fin S512x8192.rank)
  bcast_S8192_S10x8192_1 : S8192.BroadcastsInDim S10x8192 (![1] : Fin 1 → Fin S10x8192.rank)
  bcast_S_S10x8192 : S_.BroadcastsInDim S10x8192 (![] : Fin 0 → Fin S10x8192.rank)
  transposes_S10x8192_S8192x10_1_0 : S10x8192.Transposes [1, 0] S8192x10
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S784x262144_S8192x1_S784x8192_0_1_n_n_1_1_7841_wf : GatherDims.WF S784x262144 S8192x1 S784x8192 [0] [1] [] [1] [] 1 ![784, 1]
  gather_S262144_S8192x1_S8192_n_0_n_n_0_1_1_wf : GatherDims.WF S262144 S8192x1 S8192 [] [0] [] [0] [] 1 ![1]
  dot_S512x784_S784x8192_S512x8192_1_0_0_1_n_n_wf : DotDims.WF S512x784 S784x8192 S512x8192 [1] [0] [0] [1] [] []
  gather_S10x262144_S8192x1_S10x8192_0_1_n_n_1_1_101_wf : GatherDims.WF S10x262144 S8192x1 S10x8192 [0] [1] [] [1] [] 1 ![10, 1]
  dot_S512x8192_S8192x10_S512x10_1_0_0_1_n_n_wf : DotDims.WF S512x8192 S8192x10 S512x10 [1] [0] [0] [1] [] []

variable [Facts₀]

def gather_S784x262144_S8192x1_S784x8192_0_1_n_n_1_1_7841 : GatherDims S784x262144 S8192x1 S784x8192 where
  offsetDims := [0]
  collapsedSliceDims := [1]
  operandBatchingDims := []
  startIndicesBatchingDims := []
  startIndexMap := [1]
  indexVectorDim := 1
  sliceSizes := ![784, 1]
  wf := gather_S784x262144_S8192x1_S784x8192_0_1_n_n_1_1_7841_wf
def gather_S262144_S8192x1_S8192_n_0_n_n_0_1_1 : GatherDims S262144 S8192x1 S8192 where
  offsetDims := []
  collapsedSliceDims := [0]
  operandBatchingDims := []
  startIndicesBatchingDims := []
  startIndexMap := [0]
  indexVectorDim := 1
  sliceSizes := ![1]
  wf := gather_S262144_S8192x1_S8192_n_0_n_n_0_1_1_wf
def dot_S512x784_S784x8192_S512x8192_1_0_0_1_n_n : DotDims S512x784 S784x8192 S512x8192 where
  lhsContracting := [1]
  rhsContracting := [0]
  lhsNonContracting := [0]
  rhsNonContracting := [1]
  lhsBatch := []
  rhsBatch := []
  wf := dot_S512x784_S784x8192_S512x8192_1_0_0_1_n_n_wf
def gather_S10x262144_S8192x1_S10x8192_0_1_n_n_1_1_101 : GatherDims S10x262144 S8192x1 S10x8192 where
  offsetDims := [0]
  collapsedSliceDims := [1]
  operandBatchingDims := []
  startIndicesBatchingDims := []
  startIndexMap := [1]
  indexVectorDim := 1
  sliceSizes := ![10, 1]
  wf := gather_S10x262144_S8192x1_S10x8192_0_1_n_n_1_1_101_wf
def dot_S512x8192_S8192x10_S512x10_1_0_0_1_n_n : DotDims S512x8192 S8192x10 S512x10 where
  lhsContracting := [1]
  rhsContracting := [0]
  lhsNonContracting := [0]
  rhsNonContracting := [1]
  lhsBatch := []
  rhsBatch := []
  wf := dot_S512x8192_S8192x10_S512x10_1_0_0_1_n_n_wf

class Facts : Prop extends Facts₀ where

variable [Facts]
-- ==== Proof.SampledMlp.lean ====
/-
  The mathematics of the sampled two-layer perceptron, with no program in sight.

  For a batch row `n` and a class `k`, an ACTIVE hidden unit `j` (one of 8192 sampled columns) contributes
  `max (∑ d, X n d * W d j + b j) 0 * U k j`: the rectified pre-activation of the unit on the row, times the unit's
  output weight for the class. The layer's value is the sum of the 8192 contributions plus the class bias.

  One side takes that sum at once. The other walks the units in eight tiles of 1024, keeps a running total that restarts
  from zero every fourth tile (so there are two totals, one per half of the units), and finally adds the two totals,
  again from zero, before the class bias. On the extended reals addition is commutative and associative and zero is
  neutral — nothing else is used — so the two groupings are the same number, whatever the entries (finite or not).
-/
import Idealize.ShloMosaic.PureOps.Ideal
import Idealize.ShloMosaic.Lib.ValueIdx

noncomputable section

namespace Cert.SampledMlp

open Idealize.ShloMosaic Idealize.ShloMosaic.ValueIdx

/-- The arrays the layer reads, after the sampled columns have been gathered: the batch `X` [512, 784], the gathered hidden
    weights `W` [784, 8192] and biases `b` [8192], the gathered output weights `U` [10, 8192]. -/
structure Operands where
  X : (⟨2, ![512, 784]⟩ : Shape).Idx → EReal
  W : (⟨2, ![784, 8192]⟩ : Shape).Idx → EReal
  b : (⟨1, ![8192]⟩ : Shape).Idx → EReal
  U : (⟨2, ![10, 8192]⟩ : Shape).Idx → EReal

/-- What active unit `j` adds to the logit of class `k` on row `n`. -/
def contribution (A : Operands) (n : Fin 512) (k : Fin 10) (j : Fin 8192) : EReal :=
  max ((∑ d : Fin 784, A.X (ix2 n d) * A.W (ix2 d j)) + A.b (ix1 j)) 0 * A.U (ix2 k j)

/-- The layer's logit: all 8192 contributions, then the class bias. -/
def logit (A : Operands) (c2 : (⟨1, ![10]⟩ : Shape).Idx → EReal) (n : Fin 512) (k : Fin 10) : EReal :=
  (∑ j : Fin 8192, contribution A n k j) + c2 (ix1 k)

/-- Unit `j'` of tile `t`: units are numbered tile by tile, 1024 to a tile. -/
def unitOf (t : Fin 8) (j' : Fin 1024) : Fin 8192 := ⟨t.val * 1024 + j'.val, by have := t.isLt; have := j'.isLt; omega⟩

/-- The contributions of one tile of 1024 units. -/
def tileSum (A : Operands) (n : Fin 512) (k : Fin 10) (t : Fin 8) : EReal :=
  ∑ j' : Fin 1024, contribution A n k (unitOf t j')

/-- The running total after tile `t`: it restarts from zero at tiles 0 and 4, and otherwise continues the previous tile's. -/
def running (f : Fin 8 → EReal) : (t : ℕ) → t < 8 → EReal
  | 0, h => 0 + f ⟨0, h⟩
  | t + 1, h => if (t + 1) % 4 = 0 then 0 + f ⟨t + 1, h⟩ else running f t (by omega) + f ⟨t + 1, h⟩

/-- The running total does not depend on how its tile number is written. -/
theorem running_congr (f : Fin 8 → EReal) {t t' : ℕ} (e : t = t') (h : t < 8) (h' : t' < 8) : running f t h = running f t' h' := by
  subst e; rfl

/-- Half `q`'s total: the running total after its fourth tile. -/
def halfTotal (A : Operands) (q : Fin 2) (n : Fin 512) (k : Fin 10) : EReal :=
  running (tileSum A n k) (q.val * 4 + 3) (by have := q.isLt; omega)

/-- The tiled logit: the two halves' totals added from zero, then the class bias. -/
def tiledLogit (A : Operands) (c2 : (⟨1, ![10]⟩ : Shape).Idx → EReal) (n : Fin 512) (k : Fin 10) : EReal :=
  (0 + ∑ q : Fin 2, halfTotal A q n k) + c2 (ix1 k)

theorem running_three (f : Fin 8 → EReal) : running f 3 (by omega) = 0 + f 0 + f 1 + f 2 + f 3 := by
  simp [running]

theorem running_seven (f : Fin 8 → EReal) : running f 7 (by omega) = 0 + f 4 + f 5 + f 6 + f 7 := by
  simp [running]

/-- A sum over the 8192 units is the sum, over the eight tiles, of each tile's 1024. -/
theorem sum_units (g : Fin 8192 → EReal) : ∑ j : Fin 8192, g j = ∑ t : Fin 8, ∑ j' : Fin 1024, g (unitOf t j') := by
  rw [← Finset.sum_product', Finset.univ_product_univ]
  refine (Fintype.sum_equiv (finProdFinEquiv (m := 8) (n := 1024)) _ _ fun p => ?_).symm
  refine congrArg g (Fin.ext ?_)
  show p.1.val * 1024 + p.2.val = (finProdFinEquiv p).val
  simp [finProdFinEquiv]; omega

/-- THE LAW: the tiled grouping of the sum is the sum. -/
theorem tiledLogit_eq (A : Operands) (c2 : (⟨1, ![10]⟩ : Shape).Idx → EReal) (n : Fin 512) (k : Fin 10) :
    tiledLogit A c2 n k = logit A c2 n k := by
  unfold tiledLogit logit
  refine congrArg (· + c2 (ix1 k)) ?_
  rw [sum_units, Fin.sum_univ_two, Fin.sum_univ_eight]
  show 0 + (running (tileSum A n k) 3 _ + running (tileSum A n k) 7 _) = _
  rw [running_three, running_seven]
  simp only [zero_add, tileSum]
  ac_rfl

end Cert.SampledMlp

end
-- ==== Proof.KBodyPieces.lean ====
/-
  What one visit of the body leaves behind, as plain values.

  The body keeps a running [512, 10] total in a scratch block. On the first tile of a half it overwrites the total with
  zero and then adds this tile's partial product to it; on every other tile it adds the partial product to what the
  previous tile left; on the last tile of a half it also copies the total, as a [1, 512, 10] block, to the output.
  Each of those is a single store covering its whole block, so what the block holds afterwards is the stored value:
  the total after a first tile is the update of the zero block, after any other tile the update of the previous
  total, and the block written out is the re-laid total.
-/
import proofs.«159776_j51470888075432_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.BodyValue

open Cert.KernelIdeal Cert.KernelIdeal.Gen

variable {F : FTy → Type} [FloatOps F]

theorem origin2 : (![0, 0] : Fin 2 → Nat) = fun _ => 0 := funext fun a => by fin_cases a <;> rfl
theorem origin3 : (![0, 0, 0] : Fin 3 → Nat) = fun _ => 0 := funext fun a => by fin_cases a <;> rfl

/-- The total after a FIRST tile: the update applied to the zero block just stored. -/
theorem total_first (c : Dev nD) (i : grid0.Coords) (arg2 : Memref sig .tc .vmem S512x784 .bf16) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S1024x10 .bf16) (harg5 : arg5.IsWhole) (arg6 : Memref sig .tc .vmem S1x512x10 .f32) (harg6 : arg6.IsWhole) (arg7 : Memref sig .tc .vmem S512x10 .f32) (harg7 : arg7.IsWhole) (hc0 : cond0_0 i) (hc1 : ¬cond0_1 i) (x0 : Vec F S512x784 .bf16) (x1 : Vec F S784x1024 .bf16) (x2 : Vec F S1x1024 .f32) (x3 : Vec F S1024x10 .bf16) :
    sout0_A_0 c i arg2 harg2 arg3 harg3 arg4 harg4 arg5 harg5 arg6 harg6 arg7 harg7 hc0 hc1 x0 x1 x2 x3 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S512x10) origin2, View.readCov_unit_zero (S := S512x10) _ origin2]
  simp only [View.readAt_eq_ld, harg2.read_unread, harg3.read_unread, harg4.read_unread, harg5.read_unread,
    View.ld_unit_zero (S := S512x784) origin2, View.ld_unit_zero (S := S784x1024) origin2,
    View.ld_unit_zero (S := S1x1024) origin2, View.ld_unit_zero (S := S1024x10) origin2]

/-- The total after a MIDDLE tile: the update applied to what the previous tile left. -/
theorem total_middle (c : Dev nD) (i : grid0.Coords) (arg2 : Memref sig .tc .vmem S512x784 .bf16) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S1024x10 .bf16) (harg5 : arg5.IsWhole) (arg6 : Memref sig .tc .vmem S1x512x10 .f32) (harg6 : arg6.IsWhole) (arg7 : Memref sig .tc .vmem S512x10 .f32) (harg7 : arg7.IsWhole) (hc0 : ¬cond0_0 i) (hc1 : ¬cond0_1 i) (x0 : Vec F S512x784 .bf16) (x1 : Vec F S784x1024 .bf16) (x2 : Vec F S1x1024 .f32) (x3 : Vec F S1024x10 .bf16) (xs0 : Vec F S512x10 .f32) :
    sout0_B_0 c i arg2 harg2 arg3 harg3 arg4 harg4 arg5 harg5 arg6 harg6 arg7 harg7 hc0 hc1 x0 x1 x2 x3 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero origin2]
  simp only [View.readAt_eq_ld, harg2.read_unread, harg3.read_unread, harg4.read_unread, harg5.read_unread, harg7.read_unread,
    View.ld_unit_zero (S := S512x784) origin2, View.ld_unit_zero (S := S784x1024) origin2,
    View.ld_unit_zero (S := S1x1024) origin2, View.ld_unit_zero (S := S1024x10) origin2, View.ld_unit_zero (S := S512x10) origin2]

/-- The total after a LAST tile: the same update. -/
theorem total_last (c : Dev nD) (i : grid0.Coords) (arg2 : Memref sig .tc .vmem S512x784 .bf16) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S1024x10 .bf16) (harg5 : arg5.IsWhole) (arg6 : Memref sig .tc .vmem S1x512x10 .f32) (harg6 : arg6.IsWhole) (arg7 : Memref sig .tc .vmem S512x10 .f32) (harg7 : arg7.IsWhole) (hc0 : ¬cond0_0 i) (hc1 : cond0_1 i) (x0 : Vec F S512x784 .bf16) (x1 : Vec F S784x1024 .bf16) (x2 : Vec F S1x1024 .f32) (x3 : Vec F S1024x10 .bf16) (xs0 : Vec F S512x10 .f32) :
    sout0_C_0 c i arg2 harg2 arg3 harg3 arg4 harg4 arg5 harg5 arg6 harg6 arg7 harg7 hc0 hc1 x0 x1 x2 x3 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero origin2]
  simp only [View.readAt_eq_ld, harg2.read_unread, harg3.read_unread, harg4.read_unread, harg5.read_unread, harg7.read_unread,
    View.ld_unit_zero (S := S512x784) origin2, View.ld_unit_zero (S := S784x1024) origin2,
    View.ld_unit_zero (S := S1x1024) origin2, View.ld_unit_zero (S := S1024x10) origin2, View.ld_unit_zero (S := S512x10) origin2]

/-- The block written out on a LAST tile: the updated total, re-laid as [1, 512, 10]. -/
theorem written_last (c : Dev nD) (i : grid0.Coords) (arg2 : Memref sig .tc .vmem S512x784 .bf16) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S1024x10 .bf16) (harg5 : arg5.IsWhole) (arg6 : Memref sig .tc .vmem S1x512x10 .f32) (harg6 : arg6.IsWhole) (arg7 : Memref sig .tc .vmem S512x10 .f32) (harg7 : arg7.IsWhole) (hc0 : ¬cond0_0 i) (hc1 : cond0_1 i) (x0 : Vec F S512x784 .bf16) (x1 : Vec F S784x1024 .bf16) (x2 : Vec F S1x1024 .f32) (x3 : Vec F S1024x10 .bf16) (xs0 : Vec F S512x10 .f32) :
    out0_C_4 c i arg2 harg2 arg3 harg3 arg4 harg4 arg5 harg5 arg6 harg6 arg7 harg7 hc0 hc1 x0 x1 x2 x3 xs0 = k0_pay3 (k0_pay2 x0 x1 x2 x3 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero origin3, View.readCov_unit_zero (S := S512x10) _ origin2]
  simp only [View.readAt_eq_ld, harg2.read_unread, harg3.read_unread, harg4.read_unread, harg5.read_unread, harg7.read_unread,
    View.ld_unit_zero (S := S512x784) origin2, View.ld_unit_zero (S := S784x1024) origin2,
    View.ld_unit_zero (S := S1x1024) origin2, View.ld_unit_zero (S := S1024x10) origin2, View.ld_unit_zero (S := S512x10) origin2]

end Cert.KernelIdeal.BodyValue

end
-- ==== Proof.KBodyPayload.lean ====
/-
  The body's arithmetic, read one entry at a time on the extended reals.

  With `x` the [512, 784] batch block, `w` a [784, 1024] tile of hidden weights, `b` the tile's [1, 1024] biases, `u` the
  tile's [1024, 10] output weights and `s` the running [512, 10] total, the update stores at (n, k)

      s (n, k) + ∑ q < 1024, max ((∑ d < 784, x (n, d) * w (d, q)) + b (0, q)) 0 * u (q, k).

  Both products are sums over their one contracted axis (there is no accumulator: it is the zero block), the bias row
  is read at its column whatever the row, the rectifier is `max · 0`, and narrowing the rectified block to the
  half-width format changes nothing on exact values. The reset stores zero everywhere, and the block written out is
  the total with a leading axis of extent one.
-/
import proofs.«159776_j51470888075432_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.BodyValue

open Cert.KernelIdeal Cert.KernelIdeal.Gen Idealize.ShloMosaic Idealize.ShloMosaic.ValueIdx

/-- The first product contracts the batch block's columns with the weight tile's rows. -/
abbrev hiddenDot : DotDims S512x784 S784x1024 S512x1024 := dot_S512x784_S784x1024_S512x1024_1_0_0_1_n_n
/-- The second product contracts the rectified block's columns with the output weights' rows. -/
abbrev outputDot : DotDims S512x1024 S1024x10 S512x10 := dot_S512x1024_S1024x10_S512x10_1_0_0_1_n_n

/-- At output entry (n, q) and contraction position d the first product reads the batch block at (n, d) … -/
theorem hiddenDot_lhs (n : Fin 512) (q : Fin 1024) (d : Fin 784) :
    hiddenDot.lhsIdx (ix2 n q) ((contrEquiv1 hiddenDot 784 rfl rfl).symm d) = ix2 n d := by
  funext a
  apply Fin.ext
  match a with
  | ⟨0, _⟩ => rfl
  | ⟨1, _⟩ => exact (hiddenDot.lhsIdx_val_of_single (cl := (1 : Fin 2)) rfl _ _).trans (contrEquiv1_symm_val hiddenDot 784 rfl rfl d)

/-- … and the weight tile at (d, q). -/
theorem hiddenDot_rhs (n : Fin 512) (q : Fin 1024) (d : Fin 784) :
    hiddenDot.rhsIdx (ix2 n q) ((contrEquiv1 hiddenDot 784 rfl rfl).symm d) = ix2 d q := by
  funext a
  apply Fin.ext
  match a with
  | ⟨0, _⟩ => exact (hiddenDot.rhsIdx_val_of_single (cr := (0 : Fin 2)) rfl _ _).trans (contrEquiv1_symm_val hiddenDot 784 rfl rfl d)
  | ⟨1, _⟩ => rfl

/-- At output entry (n, k) and contraction position q the second product reads the rectified block at (n, q) … -/
theorem outputDot_lhs (n : Fin 512) (k : Fin 10) (q : Fin 1024) :
    outputDot.lhsIdx (ix2 n k) ((contrEquiv1 outputDot 1024 rfl rfl).symm q) = ix2 n q := by
  funext a
  apply Fin.ext
  match a with
  | ⟨0, _⟩ => rfl
  | ⟨1, _⟩ => exact (outputDot.lhsIdx_val_of_single (cl := (1 : Fin 2)) rfl _ _).trans (contrEquiv1_symm_val outputDot 1024 rfl rfl q)

/-- … and the output weights at (q, k). -/
theorem outputDot_rhs (n : Fin 512) (k : Fin 10) (q : Fin 1024) :
    outputDot.rhsIdx (ix2 n k) ((contrEquiv1 outputDot 1024 rfl rfl).symm q) = ix2 q k := by
  funext a
  apply Fin.ext
  match a with
  | ⟨0, _⟩ => exact (outputDot.rhsIdx_val_of_single (cr := (0 : Fin 2)) rfl _ _).trans (contrEquiv1_symm_val outputDot 1024 rfl rfl q)
  | ⟨1, _⟩ => rfl

/-- The first product into the zero block, at (n, q): the row of the batch block against the column of the weight tile. -/
theorem hidden_apply (x : FVec Ideal S512x784 .bf16) (w : FVec Ideal S784x1024 .bf16) (n : Fin 512) (q : Fin 1024) :
    matmul hiddenDot none x w (constant S512x1024 .f32 0x00000000#32) (ix2 n q) = ∑ d : Fin 784, x (ix2 n d) * w (ix2 d q) := by
  refine (Ideal.matmul_constant_zero_apply hiddenDot none x w (ix2 n q)).trans ?_
  rw [← Equiv.sum_comp (contrEquiv1 hiddenDot 784 rfl rfl).symm]
  exact Finset.sum_congr rfl fun d _ => by rw [hiddenDot_lhs, hiddenDot_rhs]

/-- The second product into the zero block, at (n, k). -/
theorem output_apply (r : FVec Ideal S512x1024 .bf16) (u : FVec Ideal S1024x10 .bf16) (n : Fin 512) (k : Fin 10) :
    matmul outputDot none r u (constant S512x10 .f32 0x00000000#32) (ix2 n k) = ∑ q : Fin 1024, r (ix2 n q) * u (ix2 q k) := by
  refine (Ideal.matmul_constant_zero_apply outputDot none r u (ix2 n k)).trans ?_
  rw [← Equiv.sum_comp (contrEquiv1 outputDot 1024 rfl rfl).symm]
  exact Finset.sum_congr rfl fun q _ => by rw [outputDot_lhs, outputDot_rhs]

/-- The reset block is zero at every entry. -/
theorem reset_apply (j : S512x10.Idx) : k0_pay1 (F := Ideal) j = 0 := by
  unfold k0_pay1
  rw [shapeCast_self]
  exact Ideal.ofBits_zero_f32

/-- THE UPDATE at (n, k): the previous total there, plus the tile's 1024 rectified pre-activations on row n, each times
    its unit's weight for class k. -/
theorem update_apply (x : Vec Ideal S512x784 .bf16) (w : Vec Ideal S784x1024 .bf16) (b : Vec Ideal S1x1024 .f32)
    (u : Vec Ideal S1024x10 .bf16) (s : Vec Ideal S512x10 .f32) (n : Fin 512) (k : Fin 10) :
    k0_pay2 x w b u s (ix2 n k)
      = s (ix2 n k) + ∑ q : Fin 1024, max ((∑ d : Fin 784, x (ix2 n d) * w (ix2 d q)) + b (ix2 (0 : Fin 1) q)) 0 * u (ix2 q k) := by
  unfold k0_pay2
  simp only [shapeCast_self]
  refine congrArg (s (ix2 n k) + ·) ?_
  refine (output_apply _ u n k).trans ?_
  refine Finset.sum_congr rfl fun q _ => congrArg (· * u (ix2 q k)) ?_
  show max (matmul hiddenDot none x w (constant (F := Ideal) S512x1024 .f32 0x00000000#32) (ix2 n q)
      + broadcastTo S512x1024 b broadcasts_S1x1024_S512x1024 (ix2 n q)) (Ideal.ofBits .f32 0x00000000#32) = _
  rw [hidden_apply, broadcastTo_1b_ab_apply, Ideal.ofBits_zero_f32]

/-- The block written out is the total under a leading axis of extent one. -/
theorem written_apply (s : Vec Ideal S512x10 .f32) (a : Fin 1) (n : Fin 512) (k : Fin 10) :
    k0_pay3 s (ix3 a n k) = s (ix2 n k) := by
  unfold k0_pay3
  exact shapeCast_ab_1ab_apply s _ a n k

end Cert.KernelIdeal.BodyValue

end
-- ==== Proof.KBlocks.lean ====
/-
  What each window's block holds at a grid point, in the coordinates of the layer's arrays.

  The grid has eight points, numbered `t = 4·half + step`. The batch block is the whole batch at every point. Point `t`
  reads tile `t` of the gathered arrays: columns `1024·t …` of the hidden weights and of the bias row, rows `1024·t …` of
  the transposed output weights. So entry `q` of a tile at point `t` is unit `1024·t + q`, and the 1024 terms the body
  sums at `t` are exactly tile `t`'s contributions.
-/
import proofs.«159776_j51470888075432_2_alg».proof.Proof.Gen.KernelIdeal.Frame
import proofs.«159776_j51470888075432_2_alg».proof.Proof.SampledMlp
import Idealize.ShloMosaic.Lib.Pipeline.Value
import Idealize.ShloMosaic.Lib.ValueIdx

noncomputable section

open Idealize.ShloMosaic Idealize.ShloMosaic.TcCoe Idealize.SL.Sem

namespace Cert.KernelIdeal.BodyValue

open Cert.KernelIdeal Cert.KernelIdeal.Gen Idealize.ShloMosaic.ValueIdx Cert.SampledMlp

variable (m : (ℓ : Loc nD τ sig) → Buf (Elt Ideal) ℓ)

/-- The block index of every window at every point: the batch block never moves; the three tiled operands are at tile
    `t`; the output block is the half's. -/
theorem block_index : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = t.val ∧ win0_3.index t (1 : Fin 2) = 0
    ∧ win0_4.index t (0 : Fin 3) = t.val / 4 ∧ win0_4.index t (1 : Fin 3) = 0 ∧ win0_4.index t (2 : Fin 3) = 0 :=
  (by decide +kernel : ∀ t : Fin grid0.N, _)

/-- A grid point as a tile number. -/
def tile (t : Fin cfg0.N) : Fin 8 := ⟨t.val, lt_of_lt_of_eq t.isLt (show cfg0.N = 8 from N_0)⟩

/-- What the four staged arrays hold when the region is entered, in the layer's terms: the batch; the gathered hidden
    weights; the gathered biases as one row; the gathered output weights, transposed. -/
structure Staged (c : Dev nD) (A : Operands) : Prop where
  x : ∀ (n : Fin 512) (d : Fin 784), (V m c main_v7 : S512x784.Idx → EReal) (ix2 n d) = A.X (ix2 n d)
  w : ∀ (d : Fin 784) (j : Fin 8192), (V m c main_v1 : S784x8192.Idx → EReal) (ix2 d j) = A.W (ix2 d j)
  b : ∀ (j : Fin 8192), (V m c main_v3 : S1x8192.Idx → EReal) (ix2 (0 : Fin 1) j) = A.b (ix1 j)
  u : ∀ (j : Fin 8192) (k : Fin 10), (V m c main_v6 : S8192x10.Idx → EReal) (ix2 j k) = A.U (ix2 k j)

variable {m}

/-- The batch block at any point is the batch. -/
theorem block_x {c : Dev nD} {A : Operands} (hS : Staged m c A) (t : Fin cfg0.N) (n : Fin 512) (d : Fin 784) :
    (iblk m c 0 t : Vec Ideal S512x784 .bf16) (ix2 n d) = A.X (ix2 n d) := by
  obtain ⟨e0, e1, -⟩ := block_index t
  refine Eq.trans ?_ (hS.x n d)
  unfold iblk
  rw [View.read_apply]
  show V m c main_v7 (((cfg0.win 0).blk t).view.emb (ix2 n d)) = V m c main_v7 (ix2 n d)
  refine congrArg (V m c main_v7) (funext fun a => Fin.ext ?_)
  match a with
  | ⟨0, _⟩ => show win0_0.index t (0 : Fin 2) * 512 + 1 * n.val = n.val; rw [e0]; omega
  | ⟨1, _⟩ => show win0_0.index t (1 : Fin 2) * 784 + 1 * d.val = d.val; rw [e1]; omega

/-- The hidden-weight block at point `t`, column `q`: unit `1024·t + q`'s column. -/
theorem block_w {c : Dev nD} {A : Operands} (hS : Staged m c A) (t : Fin cfg0.N) (d : Fin 784) (q : Fin 1024) :
    (iblk m c 1 t : Vec Ideal S784x1024 .bf16) (ix2 d q) = A.W (ix2 d (unitOf (tile t) q)) := by
  obtain ⟨-, -, e0, e1, -⟩ := block_index t
  refine Eq.trans ?_ (hS.w d (unitOf (tile t) q))
  unfold iblk
  rw [View.read_apply]
  show V m c main_v1 (((cfg0.win 1).blk t).view.emb (ix2 d q)) = V m c main_v1 (ix2 d (unitOf (tile t) q))
  refine congrArg (V m c main_v1) (funext fun a => Fin.ext ?_)
  match a with
  | ⟨0, _⟩ => show win0_1.index t (0 : Fin 2) * 784 + 1 * d.val = d.val; rw [e0]; omega
  | ⟨1, _⟩ => show win0_1.index t (1 : Fin 2) * 1024 + 1 * q.val = t.val * 1024 + q.val; rw [e1]; omega

/-- The bias block at point `t`, column `q`: unit `1024·t + q`'s bias. -/
theorem block_b {c : Dev nD} {A : Operands} (hS : Staged m c A) (t : Fin cfg0.N) (q : Fin 1024) :
    (iblk m c 2 t : Vec Ideal S1x1024 .f32) (ix2 (0 : Fin 1) q) = A.b (ix1 (unitOf (tile t) q)) := by
  obtain ⟨-, -, -, -, e0, e1, -⟩ := block_index t
  refine Eq.trans ?_ (hS.b (unitOf (tile t) q))
  unfold iblk
  rw [View.read_apply]
  show V m c main_v3 (((cfg0.win 2).blk t).view.emb (ix2 (0 : Fin 1) q)) = V m c main_v3 (ix2 (0 : Fin 1) (unitOf (tile t) q))
  refine congrArg (V m c main_v3) (funext fun a => Fin.ext ?_)
  match a with
  | ⟨0, _⟩ => show win0_2.index t (0 : Fin 2) * 1 + 1 * 0 = 0; rw [e0]
  | ⟨1, _⟩ => show win0_2.index t (1 : Fin 2) * 1024 + 1 * q.val = t.val * 1024 + q.val; rw [e1]; omega

/-- The output-weight block at point `t`, row `q`: unit `1024·t + q`'s weights. -/
theorem block_u {c : Dev nD} {A : Operands} (hS : Staged m c A) (t : Fin cfg0.N) (q : Fin 1024) (k : Fin 10) :
    (iblk m c 3 t : Vec Ideal S1024x10 .bf16) (ix2 q k) = A.U (ix2 k (unitOf (tile t) q)) := by
  obtain ⟨-, -, -, -, -, -, e0, e1, -⟩ := block_index t
  refine Eq.trans ?_ (hS.u (unitOf (tile t) q) k)
  unfold iblk
  rw [View.read_apply]
  show V m c main_v6 (((cfg0.win 3).blk t).view.emb (ix2 q k)) = V m c main_v6 (ix2 (unitOf (tile t) q) k)
  refine congrArg (V m c main_v6) (funext fun a => Fin.ext ?_)
  match a with
  | ⟨0, _⟩ => show win0_3.index t (0 : Fin 2) * 1024 + 1 * q.val = t.val * 1024 + q.val; rw [e0]; omega
  | ⟨1, _⟩ => show win0_3.index t (1 : Fin 2) * 10 + 1 * k.val = k.val; rw [e1]; omega

/-- The 1024 terms the body sums for entry (n, k) are a tile's contributions, whenever its four blocks hold what tile `tl`'s
    hold: the batch, and unit `1024·tl + q`'s weights column, bias and output weights at position `q`. -/
theorem tile_terms (A : Operands) (tl : Fin 8) (x : Vec Ideal S512x784 .bf16) (w : Vec Ideal S784x1024 .bf16)
    (b : Vec Ideal S1x1024 .f32) (u : Vec Ideal S1024x10 .bf16)
    (hx : ∀ (n : Fin 512) (d : Fin 784), x (ix2 n d) = A.X (ix2 n d))
    (hw : ∀ (d : Fin 784) (q : Fin 1024), w (ix2 d q) = A.W (ix2 d (unitOf tl q)))
    (hb : ∀ q : Fin 1024, b (ix2 (0 : Fin 1) q) = A.b (ix1 (unitOf tl q)))
    (hu : ∀ (q : Fin 1024) (k : Fin 10), u (ix2 q k) = A.U (ix2 k (unitOf tl q))) (n : Fin 512) (k : Fin 10) :
    (∑ q : Fin 1024, max ((∑ d : Fin 784, x (ix2 n d) * w (ix2 d q)) + b (ix2 (0 : Fin 1) q)) 0 * u (ix2 q k))
      = tileSum A n k tl := by
  unfold tileSum contribution
  refine Finset.sum_congr rfl fun q _ => ?_
  rw [hb q, hu q k]
  refine congrArg (fun z => max (z + A.b (ix1 (unitOf tl q))) 0 * A.U (ix2 k (unitOf tl q))) ?_
  exact Finset.sum_congr rfl fun d _ => by rw [hx n d, hw d q]

end Cert.KernelIdeal.BodyValue

end
-- ==== Proof.KAccum.lean ====
/-
  The running total, point by point.

  After the body's visit at grid point `t` the scratch block holds, at (n, k), the running total of tile sums: it starts
  again from zero at the first tile of a half and otherwise continues from the previous point. This is an induction on
  the point, each step being the body's update read at an entry: the previous total plus tile `t`'s 1024 contributions.
  On the last tile of a half the body copies that total to the output block.
-/
import proofs.«159776_j51470888075432_2_alg».proof.Proof.KBodyPieces
import proofs.«159776_j51470888075432_2_alg».proof.Proof.KBodyPayload
import proofs.«159776_j51470888075432_2_alg».proof.Proof.KBlocks

noncomputable section

open Idealize.ShloMosaic Idealize.ShloMosaic.TcCoe Idealize.SL.Sem

namespace Cert.KernelIdeal.BodyValue

open Cert.KernelIdeal Cert.KernelIdeal.Gen Idealize.ShloMosaic.ValueIdx Cert.SampledMlp

variable {m : (ℓ : Loc nD τ sig) → Buf (Elt Ideal) ℓ} {c : Dev nD} {A : Operands}

/-- After the first tile of a half the scratch holds the update of the zero block by the point's blocks. -/
theorem scratch_first (t : Fin cfg0.N) (h0 : t.val % 4 = 0) (h1 : ¬t.val % 4 = 3) :
    (outsAt0 m c t.val t.isLt).2
      = k0_pay2 (iblk m c 0 t) (iblk m c 1 t) (iblk m c 2 t) (iblk m c 3 t) (k0_pay1 (F := Ideal)) := by
  rw [outsAt0_A m c t h0 h1]
  dsimp only
  exact total_first _ _ _ _ _ _ _ _ _ _ _ _ _ _ _ _ _ _ _ _

/-- After any other tile it holds the update of what the previous point left. -/
theorem scratch_next (t : Fin cfg0.N) (h0 : ¬t.val % 4 = 0) (hp : t.val - 1 < cfg0.N) :
    (outsAt0 m c t.val t.isLt).2
      = k0_pay2 (iblk m c 0 t) (iblk m c 1 t) (iblk m c 2 t) (iblk m c 3 t) (outsAt0 m c (t.val - 1) hp).2 := by
  by_cases h1 : t.val % 4 = 3
  · rw [outsAt0_C m c t h0 h1]
    dsimp only
    exact total_last _ _ _ _ _ _ _ _ _ _ _ _ _ _ _ _ _ _ _ _ _
  · rw [outsAt0_B m c t h0 h1]
    dsimp only
    exact total_middle _ _ _ _ _ _ _ _ _ _ _ _ _ _ _ _ _ _ _ _ _

/-- On the last tile of a half the output block is the scratch's new contents, re-laid. -/
theorem output_last (t : Fin cfg0.N) (h0 : ¬t.val % 4 = 0) (h1 : t.val % 4 = 3) :
    (outsAt0 m c t.val t.isLt).1 = k0_pay3 (outsAt0 m c t.val t.isLt).2 := by
  rw [outsAt0_C m c t h0 h1]
  dsimp only
  rw [total_last]
  exact written_last _ _ _ _ _ _ _ _ _ _ _ _ _ _ _ _ _ _ _ _ _

/-- The update by point `t`'s blocks, at (n, k): the previous total there plus tile `t`'s contributions. -/
theorem update_value (hS : Staged m c A) (t : Fin cfg0.N) (s : Vec Ideal S512x10 .f32) (n : Fin 512) (k : Fin 10) :
    k0_pay2 (iblk m c 0 t) (iblk m c 1 t) (iblk m c 2 t) (iblk m c 3 t) s (ix2 n k) = s (ix2 n k) + tileSum A n k (tile t) :=
  (update_apply _ _ _ _ s n k).trans (congrArg (s (ix2 n k) + ·)
    (tile_terms A (tile t) _ _ _ _ (block_x hS t) (block_w hS t) (block_b hS t) (block_u hS t) n k))

/-- THE INVARIANT: after point `t` the scratch holds, at (n, k), the running total of the tile sums. -/
theorem scratch_value (hS : Staged m c A) : ∀ (t : ℕ) (h : t < cfg0.N) (n : Fin 512) (k : Fin 10),
    (outsAt0 m c t h).2 (ix2 n k) = running (tileSum A n k) t (lt_of_lt_of_eq h (show cfg0.N = 8 from N_0))
  | 0, h, n, k => by
    have e := scratch_first (m := m) (c := c) ⟨0, h⟩ rfl (by dsimp only; omega)
    rw [show (outsAt0 m c 0 h).2 = _ from e, update_value hS, reset_apply]
    rfl
  | t + 1, h, n, k => by
    have hN : t + 1 < 8 := lt_of_lt_of_eq h (show cfg0.N = 8 from N_0)
    by_cases h0 : (t + 1) % 4 = 0
    · have e := scratch_first (m := m) (c := c) ⟨t + 1, h⟩ h0 (by dsimp only; omega)
      rw [show (outsAt0 m c (t + 1) h).2 = _ from e, update_value hS, reset_apply]
      show _ = (if (t + 1) % 4 = 0 then _ else _)
      rw [if_pos h0]
      rfl
    · have e := scratch_next (m := m) (c := c) ⟨t + 1, h⟩ h0 (show t + 1 - 1 < cfg0.N by omega)
      rw [show (outsAt0 m c (t + 1) h).2 = _ from e, update_value hS]
      show (outsAt0 m c t _).2 (ix2 n k) + _ = (if (t + 1) % 4 = 0 then _ else _)
      rw [if_neg h0, scratch_value hS t (by omega) n k]
      rfl

/-- So on the last tile of a half the output block holds the half's total. -/
theorem output_value (hS : Staged m c A) (t : Fin cfg0.N) (h1 : t.val % 4 = 3) (a : Fin 1) (n : Fin 512) (k : Fin 10) :
    (outsAt0 m c t.val t.isLt).1 (ix3 a n k)
      = running (tileSum A n k) t.val (lt_of_lt_of_eq t.isLt (show cfg0.N = 8 from N_0)) := by
  rw [output_last t (by omega) h1, written_apply]
  exact scratch_value hS t.val t.isLt n k

end Cert.KernelIdeal.BodyValue

end
-- ==== Proof.KFinal.lean ====
/-
  The output array after the run.

  The output [2, 512, 10] is written back twice: after point 3 its block 0 and after point 7 its block 1, each block
  being a whole [1, 512, 10] slab. What is written after point `4q + 3` is half `q`'s total, so the array ends holding,
  at (q, n, k), half `q`'s total for row `n` and class `k`; the two slabs cover the array.
-/
import proofs.«159776_j51470888075432_2_alg».proof.Proof.KAccum

noncomputable section

open Idealize.ShloMosaic Idealize.ShloMosaic.TcCoe Idealize.SL.Sem
open Idealize.ShloMosaic.Pipeline (Dat)

namespace Cert.KernelIdeal.BodyValue

open Cert.KernelIdeal Cert.KernelIdeal.Gen Idealize.ShloMosaic.ValueIdx Cert.SampledMlp

variable {m : (ℓ : Loc nD τ sig) → Buf (Elt Ideal) ℓ} {c : Dev nD} {A : Operands}

/-- The two halves' totals as one [2, 512, 10] array. -/
def halves (A : Operands) : S2x512x10.Idx → EReal := fun i => halfTotal A (i 0) (i 1) (i 2)

theorem halves_apply (A : Operands) (q : Fin 2) (n : Fin 512) (k : Fin 10) : halves A (ix3 q n k) = halfTotal A q n k := rfl

/-- An entry of the array lies in point `t`'s block iff each coordinate lies in the block's range on its axis. -/
theorem mem_block (t : Fin cfg0.N) (i : S2x512x10.Idx) :
    i ∈ ((cfg0.win 4).blk t).view.set ↔ ∀ a : Fin 3, win0_4.index t a * S1x512x10.size a ≤ (i a).val
      ∧ (i a).val < win0_4.index t a * S1x512x10.size a + S1x512x10.size a := by
  show i ∈ ((View.whole main_v8).slice (win0_4.rect t)).set ↔ _
  rw [View.set_slice_whole, Rect.mem_set_unit]
  exact Iff.rfl

/-- WHAT A WRITE-BACK WRITES: after the last tile of a half, that half's slab of the totals. -/
theorem flushed_eq (hS : Staged m c A) (t : Fin cfg0.N) (hf : (cfg0.win 4).flush t = true) :
    (dats m 0 c).flushed 4 t = ((cfg0.win 4).blk t).view.read (Elt Ideal) (halves A) := by
  have h3 : t.val % 4 = 3 := (flush0_4 t).mp hf
  have hN : t.val < 8 := lt_of_lt_of_eq t.isLt (show cfg0.N = 8 from N_0)
  obtain ⟨-, -, -, -, -, -, -, -, e0, e1, e2⟩ := block_index t
  show (cfg0.win 4).cut (grid0.coords t) ((dats m 0 c).after 4 t) = _
  rw [after0_4]
  funext y
  obtain ⟨a, n, k, rfl⟩ : ∃ (a : Fin 1) (n : Fin 512) (k : Fin 10), y = ix3 a n k := ⟨y 0, y 1, y 2, eq_ix3 y⟩
  show (outsAt0 m c t.val t.isLt).1 (ix3 a n k) = halves A (((cfg0.win 4).blk t).view.emb (ix3 a n k))
  rw [output_value hS t h3]
  have hemb : ((cfg0.win 4).blk t).view.emb (ix3 a n k) = ix3 (⟨t.val / 4, by omega⟩ : Fin 2) n k := by
    funext a'
    apply Fin.ext
    match a' with
    | ⟨0, _⟩ => show win0_4.index t (0 : Fin 3) * 1 + 1 * a.val = t.val / 4; rw [e0]; have := a.isLt; omega
    | ⟨1, _⟩ => show win0_4.index t (1 : Fin 3) * 512 + 1 * n.val = n.val; rw [e1]; omega
    | ⟨2, _⟩ => show win0_4.index t (2 : Fin 3) * 10 + 1 * k.val = k.val; rw [e2]; omega
  rw [hemb, halves_apply]
  unfold halfTotal
  exact running_congr _ (by show t.val = t.val / 4 * 4 + 3; omega) _ _

/-- Every entry of the array is in the slab written back after the last tile of its half. -/
theorem covered (i : S2x512x10.Idx) :
    ∃ t : Fin cfg0.N, (cfg0.win 4).flush t = true ∧ i ∈ ((cfg0.win 4).blk t).view.set := by
  have hi0 : (i 0).val < 2 := (i 0).isLt
  have hi1 : (i 1).val < 512 := (i 1).isLt
  have hi2 : (i 2).val < 10 := (i 2).isLt
  have hlt : (i 0).val * 4 + 3 < cfg0.N := by rw [show cfg0.N = 8 from N_0]; omega
  obtain ⟨-, -, -, -, -, -, -, -, e0, e1, e2⟩ := block_index ⟨(i 0).val * 4 + 3, hlt⟩
  refine ⟨⟨(i 0).val * 4 + 3, hlt⟩, (flush0_4 _).mpr (by show ((i 0).val * 4 + 3) % 4 = 3; omega), ?_⟩
  rw [mem_block]
  intro a
  match a with
  | ⟨0, _⟩ =>
    show win0_4.index ⟨(i 0).val * 4 + 3, hlt⟩ (0 : Fin 3) * 1 ≤ (i 0).val ∧ (i 0).val < win0_4.index ⟨(i 0).val * 4 + 3, hlt⟩ (0 : Fin 3) * 1 + 1
    rw [e0]; show ((i 0).val * 4 + 3) / 4 * 1 ≤ (i 0).val ∧ (i 0).val < ((i 0).val * 4 + 3) / 4 * 1 + 1; omega
  | ⟨1, _⟩ =>
    show win0_4.index ⟨(i 0).val * 4 + 3, hlt⟩ (1 : Fin 3) * 512 ≤ (i 1).val ∧ (i 1).val < win0_4.index ⟨(i 0).val * 4 + 3, hlt⟩ (1 : Fin 3) * 512 + 512
    rw [e1]; omega
  | ⟨2, _⟩ =>
    show win0_4.index ⟨(i 0).val * 4 + 3, hlt⟩ (2 : Fin 3) * 10 ≤ (i 2).val ∧ (i 2).val < win0_4.index ⟨(i 0).val * 4 + 3, hlt⟩ (2 : Fin 3) * 10 + 10
    rw [e2]; omega

/-- THE OUTPUT ARRAY after the run: the two halves' totals. -/
theorem final (hS : Staged m c A) : (dats m 0 c).arrAt 4 cfg0.N = halves A :=
  (dats m 0 c).arrAt_eq_of_cover 4 (halves A) (fun t hf => flushed_eq hS t hf) covered

end Cert.KernelIdeal.BodyValue

end
-- ==== Proof.KRun.lean ====
/-
  The idealized kernel program's run, read at its result.

  Every weakly fair execution terminates; the six argument arrays end as they were launched; and the result buffer ends
  at what the host operations after the region compute from the region's output array.
-/
import proofs.«159776_j51470888075432_2_alg».proof.Proof.Gen.KernelIdeal.Frame
import Idealize.ShloMosaic.Lib.Pipeline.Value

noncomputable section

open Idealize.ShloMosaic Idealize.ShloMosaic.TcCoe Idealize.SL.Sem

namespace Cert.KernelIdeal.RunValue

open Cert.KernelIdeal Cert.KernelIdeal.Gen

variable {F : FTy → Type} [FloatOps F]
variable (m : (ℓ : Loc nD τ sig) → Buf (Elt F) ℓ) (ρ : Dev nD → PrngReg)

/-- The result buffer after the run, per device: the tail's value. -/
abbrev resultAfter (c : Dev nD) : Buf (Elt F) ((c : Thread nD τ).loc main_v12) :=
  Pipeline.afterTail₀ cfgs (dats m) 0 (V0 m) [hostOps1] c main_v12

theorem run : θ_run defs (onTc (τ := τ) (main (F := F))) ⟨m, fun _ => 0, ρ⟩ (fun r => ∀ c : Dev nD,
      r.2.mem ((c.tc : Thread nD τ).loc main_v12) = resultAfter m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).2 main_v12 (Pipeline.mem_restRefs_of main_v12 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.RunValue

end
-- ==== Proof.KHostOps.lean ====
/-
  The three column selections of the sampled layer, each as one function of the table it reads and the index vector.

  A selection takes, for each of the 8192 sampled positions, the column of the table the position's index names. The index
  is first normalised (a negative index counts from the end: the axis length 262144 is added to it), then checked against
  the axis range 0 … 262143; the columns are gathered at the normalised indices, and a position whose index is out of
  range yields the fill value (a quiet NaN pattern) instead of a column. The three selections differ only in the table:
  the hidden weights [784, 262144], the hidden biases [262144], the output weights [10, 262144].
-/
import proofs.«159776_j51470888075432_2_alg».proof.Proof.Gen.KernelIdeal
import Idealize.ShloMosaic.PureOps.Ideal

noncomputable section

namespace Cert.KernelIdeal.HostValue

open Idealize.ShloMosaic
open Cert.KernelIdeal Cert.KernelIdeal.Facts₀

/-- The sampled columns of the hidden weights: entry (d, j) is the table's entry (d, ids j), or the fill value where
    ids j is out of range. -/
def takeW1 (W : (⟨S784x262144, .f32⟩ : BufTy).Contents (Elt Ideal)) (ids : (⟨S8192, .i32⟩ : BufTy).Contents (Elt Ideal)) :
    (⟨S784x8192, .f32⟩ : BufTy).Contents (Elt Ideal) :=
  let v0 := broadcastInDim S8192 ![] bcast_S_S8192 (constantI S_ 32 0#32)
  let v1 := cmpi .slt ids v0
  let v2 := broadcastInDim S8192 ![] bcast_S_S8192 (constantI S_ 32 262144#32)
  let v3 := addi ids v2
  let v4 := select v1 v3 ids
  let v5 := broadcastInDim S8192x1 ![0] bcast_S8192_S8192x1_0 v4
  let v6 := broadcastInDim S8192x1 ![] bcast_S_S8192x1 (constantI S_ 32 0#32)
  let v7 := cmpi .sge v5 v6
  let v8 := broadcastInDim S1x1 ![1] bcast_S1_S1x1_1 (constantI S1 32 262143#32)
  let v9 := broadcastInDim S8192x1 ![0, 1] bcast_S1x1_S8192x1_0_1 v8
  let v10 := cmpi .sle v5 v9
  let v11 := andi v7 v10
  let v12 := Host.reduce IntOp.andi v11 (constantI S_ 1 1#1) reducesTo_S8192x1_S8192_d1 h_S_
  let v13 := Host.gather gather_S784x262144_S8192x1_S784x8192_0_1_n_n_1_1_7841 W v5
  let v14 := broadcastInDim S784x8192 ![1] bcast_S8192_S784x8192_1 v12
  let v15 := broadcastInDim S784x8192 ![] bcast_S_S784x8192 (constant (F := Ideal) S_ .f32 0x7FC00000#32)
  select v14 v13 v15

/-- The sampled entries of the hidden biases: entry j is the table's entry ids j, or the fill value where ids j is out
    of range. -/
def takeB1 (b : (⟨S262144, .f32⟩ : BufTy).Contents (Elt Ideal)) (ids : (⟨S8192, .i32⟩ : BufTy).Contents (Elt Ideal)) :
    (⟨S8192, .f32⟩ : BufTy).Contents (Elt Ideal) :=
  let v0 := broadcastInDim S8192 ![] bcast_S_S8192 (constantI S_ 32 0#32)
  let v1 := cmpi .slt ids v0
  let v2 := broadcastInDim S8192 ![] bcast_S_S8192 (constantI S_ 32 262144#32)
  let v3 := addi ids v2
  let v4 := select v1 v3 ids
  let v5 := broadcastInDim S8192x1 ![0] bcast_S8192_S8192x1_0 v4
  let v6 := broadcastInDim S8192x1 ![] bcast_S_S8192x1 (constantI S_ 32 0#32)
  let v7 := cmpi .sge v5 v6
  let v8 := broadcastInDim S1x1 ![1] bcast_S1_S1x1_1 (constantI S1 32 262143#32)
  let v9 := broadcastInDim S8192x1 ![0, 1] bcast_S1x1_S8192x1_0_1 v8
  let v10 := cmpi .sle v5 v9
  let v11 := andi v7 v10
  let v12 := Host.reduce IntOp.andi v11 (constantI S_ 1 1#1) reducesTo_S8192x1_S8192_d1 h_S_
  let v13 := Host.gather gather_S262144_S8192x1_S8192_n_0_n_n_0_1_1 b v5
  let v14 := broadcastInDim S8192 ![] bcast_S_S8192 (constant (F := Ideal) S_ .f32 0x7FC00000#32)
  select v12 v13 v14

/-- The sampled columns of the output weights: entry (k, j) is the table's entry (k, ids j), or the fill value where
    ids j is out of range. -/
def takeW2 (W : (⟨S10x262144, .f32⟩ : BufTy).Contents (Elt Ideal)) (ids : (⟨S8192, .i32⟩ : BufTy).Contents (Elt Ideal)) :
    (⟨S10x8192, .f32⟩ : BufTy).Contents (Elt Ideal) :=
  let v0 := broadcastInDim S8192 ![] bcast_S_S8192 (constantI S_ 32 0#32)
  let v1 := cmpi .slt ids v0
  let v2 := broadcastInDim S8192 ![] bcast_S_S8192 (constantI S_ 32 262144#32)
  let v3 := addi ids v2
  let v4 := select v1 v3 ids
  let v5 := broadcastInDim S8192x1 ![0] bcast_S8192_S8192x1_0 v4
  let v6 := broadcastInDim S8192x1 ![] bcast_S_S8192x1 (constantI S_ 32 0#32)
  let v7 := cmpi .sge v5 v6
  let v8 := broadcastInDim S1x1 ![1] bcast_S1_S1x1_1 (constantI S1 32 262143#32)
  let v9 := broadcastInDim S8192x1 ![0, 1] bcast_S1x1_S8192x1_0_1 v8
  let v10 := cmpi .sle v5 v9
  let v11 := andi v7 v10
  let v12 := Host.reduce IntOp.andi v11 (constantI S_ 1 1#1) reducesTo_S8192x1_S8192_d1 h_S_
  let v13 := Host.gather gather_S10x262144_S8192x1_S10x8192_0_1_n_n_1_1_101 W v5
  let v14 := broadcastInDim S10x8192 ![1] bcast_S8192_S10x8192_1 v12
  let v15 := broadcastInDim S10x8192 ![] bcast_S_S10x8192 (constant (F := Ideal) S_ .f32 0x7FC00000#32)
  select v14 v13 v15

end Cert.KernelIdeal.HostValue

end
-- ==== Proof.KHostRead.lean ====
/-
  What the four arrays the tiled computation reads hold when it starts.

  Before the tiles run, the batch is narrowed to the short float format, the three tables are column-selected at the sampled
  indices, the selected hidden weights and the (transposed) selected output weights are narrowed too, and the selected biases
  are given a leading unit axis. On the extended reals narrowing changes nothing, a transposition swaps the two coordinates and
  the unit axis is ignored, so the four arrays are the batch itself and the three selections, read at the evident indices.
-/
import proofs.«159776_j51470888075432_2_alg».proof.Proof.Gen.KernelIdeal.Frame.Runs
import proofs.«159776_j51470888075432_2_alg».proof.Proof.KHostOps
import Idealize.ShloMosaic.Lib.ValueIdx
import Idealize.ShloMosaic.Lib.ValueLayout
import Idealize.ShloMosaic.Lib.StableHlo.Run

set_option maxRecDepth 16384

noncomputable section

namespace Cert.KernelIdeal.HostValue

open Idealize.ShloMosaic Idealize.ShloMosaic.TcCoe Idealize.ShloMosaic.StableHlo
open Cert.KernelIdeal Cert.KernelIdeal.Gen Cert.KernelIdeal.Facts₀

variable (m : (ℓ : Loc nD τ sig) → Buf (Elt Ideal) ℓ) (c : Dev nD)

/-- The prefix of the simplification that exposes the operations before the tiles, as one list. -/
local macro "open_prefix" : tactic =>
  `(tactic| (dsimp only [Gen.V, Gen.V0]
             simp only [Gen.hostOps0, Gen.hostOps0_1, Gen.hostOps0_2, Gen.hostOps0_3, Gen.hostOps0_4, Gen.hostOps0_5, List.flatten_cons, List.flatten_nil, List.append_nil, List.cons_append, List.nil_append]))

/-- The batch, narrowed: on the extended reals, the batch. -/
theorem V_x : (V m c main_v7 : S512x784.Idx → EReal) = m ((c : Thread nD τ).loc main_arg0) := by
  open_prefix
  after_results_simp
  rfl

set_option maxHeartbeats 1000000 in
/-- The selected hidden weights, narrowed: on the extended reals, the selection. -/
theorem V_w1 : (V m c main_v1 : S784x8192.Idx → EReal)
    = takeW1 (m ((c : Thread nD τ).loc main_arg2)) (m ((c : Thread nD τ).loc main_arg1)) := by
  open_prefix
  after_results_simp
  rfl

set_option maxHeartbeats 1000000 in
/-- The selected biases with a leading unit axis, as a whole array. -/
theorem V_b1_whole : (V m c main_v3 : S1x8192.Idx → EReal)
    = shapeCast S1x8192 (takeB1 (m ((c : Thread nD τ).loc main_arg3)) (m ((c : Thread nD τ).loc main_arg1))) Facts₀.shapeCasts_S8192_S1x8192 := by
  open_prefix
  after_results_simp
  rfl

/-- The selected biases with a leading unit axis, read at (0, j): the selection at j. -/
theorem V_b1 (j : Fin 8192) : V m c main_v3 (ValueIdx.ix2 (0 : Fin 1) j)
    = takeB1 (m ((c : Thread nD τ).loc main_arg3)) (m ((c : Thread nD τ).loc main_arg1)) (ValueIdx.ix1 j) :=
  (congrFun (V_b1_whole m c) _).trans (ValueIdx.shapeCast_a_1a_apply _ _ 0 j)

set_option maxHeartbeats 1000000 in
/-- The selected output weights, transposed and narrowed, as a whole array. -/
theorem V_w2_whole : (V m c main_v6 : S8192x10.Idx → EReal)
    = transpose S8192x10 [1, 0] (takeW2 (m ((c : Thread nD τ).loc main_arg4)) (m ((c : Thread nD τ).loc main_arg1))) Facts₀.transposes_S10x8192_S8192x10_1_0 := by
  open_prefix
  after_results_simp
  rfl

/-- The selected output weights, transposed, read at (j, k): the selection at (k, j). -/
theorem V_w2 (j : Fin 8192) (k : Fin 10) : V m c main_v6 (ValueIdx.ix2 j k)
    = takeW2 (m ((c : Thread nD τ).loc main_arg4)) (m ((c : Thread nD τ).loc main_arg1)) (ValueIdx.ix2 k j) :=
  (congrFun (V_w2_whole m c) _).trans (ValueIdx.transpose_ix2_apply _ _ j k)

end Cert.KernelIdeal.HostValue

end
-- ==== Proof.KHostTail.lean ====
/-
  What the operations after the tiled computation leave in the result.

  The tiles leave two partial totals, one per half of the sampled units, as an array [2, 512, 10]. The result adds the two
  halves from zero, entry by entry, and then adds the class bias, the same for every row. Read at row n and class k this is
  (0 + the two halves at (n, k)) + the bias of class k — whatever the halves hold.
-/
import proofs.«159776_j51470888075432_2_alg».proof.Proof.Gen.KernelIdeal.Frame
import Idealize.ShloMosaic.Lib.ValueIdx
import Idealize.ShloMosaic.Lib.ValueLayout
import Idealize.ShloMosaic.Lib.StableHlo.Run
import Idealize.ShloMosaic.PureOps.Ideal.Laws
import Idealize.ShloMosaic.Lib.IdealHost

set_option maxRecDepth 16384

noncomputable section

namespace Cert.KernelIdeal.HostValue

open Idealize.ShloMosaic Idealize.ShloMosaic.TcCoe Idealize.ShloMosaic.StableHlo
open Cert.KernelIdeal Cert.KernelIdeal.Gen Cert.KernelIdeal.Facts₀

variable (m : (ℓ : Loc nD τ sig) → Buf (Elt Ideal) ℓ) (c : Dev nD)

/-- The inserted index of the sum over the two halves: coordinate q in front of (n, k). -/
theorem lift_half (h : S2x512x10.Reduces [0] S512x10) (n : Fin 512) (k : Fin 10) (q : Fin 2) :
    h.lift (ValueIdx.ix2 n k) q = ValueIdx.ix3 q n k :=
  funext fun a => match a with
    | ⟨0, _⟩ => Fin.ext rfl
    | ⟨1, _⟩ => Fin.ext rfl
    | ⟨2, _⟩ => Fin.ext rfl

/-- The two halves' totals added from zero, at (n, k). -/
theorem halves_apply (P : S2x512x10.Idx → EReal) (n : Fin 512) (k : Fin 10) :
    Host.reduceAdd (F := Ideal) (φ := .f32) P (constant (F := Ideal) S_ .f32 0x00000000#32) Facts₀.reducesTo_S2x512x10_S512x10_d0 Facts₀.h_S_ (ValueIdx.ix2 n k)
      = 0 + ∑ q : Fin 2, P (ValueIdx.ix3 q n k) := by
  have h : S2x512x10.Reduces [0] S512x10 := by decide
  rw [ValueIdx.hostReduceAdd_apply, Ideal.hostReduceAdd_single _ h, ValueIdx.constant_apply, Ideal.ofBits_zero_f32]
  refine congrArg (0 + ·) ?_
  exact Finset.sum_congr rfl fun q _ => congrArg P (lift_half h n k q)

/-- The class bias spread over the rows, at (n, k): the bias of class k. -/
theorem bias_apply (b : S10.Idx → EReal) (n : Fin 512) (k : Fin 10) :
    broadcastInDim S512x10 ![0, 1] Facts₀.bcast_S1x10_S512x10_0_1 (shapeCast S1x10 b Facts₀.shapeCasts_S10_S1x10) (ValueIdx.ix2 n k)
      = b (ValueIdx.ix1 k) :=
  (broadcastInDim_apply _ _ _ _ (ValueIdx.ix2 (0 : Fin 1) k) fun a => match a with
    | ⟨0, _⟩ => rfl
    | ⟨1, _⟩ => rfl).trans (ValueIdx.shapeCast_a_1a_apply _ _ 0 k)

set_option maxHeartbeats 1000000 in
/-- What the operations after the tiles leave in the result, as a whole array, given what the tiles left: the two halves'
    totals added from zero, plus the class bias spread over the rows. -/
theorem tail_whole (P : S2x512x10.Idx → EReal) (hP : (dats m 0 c).arrAt 4 cfg0.N = P) :
    (Pipeline.afterTail₀ cfgs (dats m) 0 (V0 m) [hostOps1] c main_v12 : S512x10.Idx → EReal)
      = addf (Host.reduceAdd (F := Ideal) (φ := .f32) P (constant (F := Ideal) S_ .f32 0x00000000#32) Facts₀.reducesTo_S2x512x10_S512x10_d0 Facts₀.h_S_)
          (broadcastInDim S512x10 ![0, 1] Facts₀.bcast_S1x10_S512x10_0_1
            (shapeCast S1x10 (m ((c : Thread nD τ).loc main_arg5)) Facts₀.shapeCasts_S10_S1x10)) := by
  have h8 : Pipeline.withArrays (cfgs 0).spec c (V0 m c) (fun w => (dats m 0 c).arrAt w (cfgs 0).N) (Proc.devRef .tc main_v8) = P :=
    (Pipeline.withArrays_arr spec0 launch0.win.arr_inj c _ _ 4).trans hP
  have h5 : Pipeline.withArrays (cfgs 0).spec c (V0 m c) (fun w => (dats m 0 c).arrAt w (cfgs 0).N) (Proc.devRef .tc main_arg5)
      = m ((c : Thread nD τ).loc main_arg5) :=
    (Pipeline.withArrays_of_ne _ c (V0 m c) _ main_arg5 (by exact (by decide : ∀ w, Pipeline.arrRef spec0 w ≠ main_arg5))).trans
      (V_main_arg5 m c)
  unfold Pipeline.afterTail₀
  show StableHlo.after hostOps1 _ (Proc.devRef .tc main_v12) = _
  after_results
  rw [h8, h5]
  rfl

/-- The result at row n and class k: the two halves' totals at (n, k) added from zero, plus the bias of class k. -/
theorem tail_apply (P : S2x512x10.Idx → EReal) (hP : (dats m 0 c).arrAt 4 cfg0.N = P) (n : Fin 512) (k : Fin 10) :
    Pipeline.afterTail₀ cfgs (dats m) 0 (V0 m) [hostOps1] c main_v12 (ValueIdx.ix2 n k)
      = (0 + ∑ q : Fin 2, P (ValueIdx.ix3 q n k)) + m ((c : Thread nD τ).loc main_arg5) (ValueIdx.ix1 k) :=
  (congrFun (tail_whole m c P hP) (ValueIdx.ix2 n k)).trans
    (congrArg₂ (· + ·) (halves_apply P n k) (bias_apply (m ((c : Thread nD τ).loc main_arg5)) n k))

end Cert.KernelIdeal.HostValue

end
-- ==== Proof.KResult.lean ====
/-
  The idealized kernel program's result, entry by entry.

  The region finds the batch, the gathered hidden weights, the gathered biases (as one row) and the gathered output
  weights (transposed) in its four input arrays; it leaves the two halves' totals in its output array; and the host
  then adds the two halves from zero and adds the class bias. So the result at (n, k) is the tiled logit of the layer.
-/
import proofs.«159776_j51470888075432_2_alg».proof.Proof.KFinal
import proofs.«159776_j51470888075432_2_alg».proof.Proof.KRun
import proofs.«159776_j51470888075432_2_alg».proof.Proof.KHostRead
import proofs.«159776_j51470888075432_2_alg».proof.Proof.KHostTail

noncomputable section

open Idealize.ShloMosaic Idealize.ShloMosaic.TcCoe Idealize.SL.Sem

namespace Cert.KernelIdeal.RunValue

open Cert.KernelIdeal Cert.KernelIdeal.Gen Idealize.ShloMosaic.ValueIdx Cert.SampledMlp
open Cert.KernelIdeal.BodyValue Cert.KernelIdeal.HostValue

variable (m : (ℓ : Loc nD τ sig) → Buf (Elt Ideal) ℓ)

/-- The layer's operands as this program forms them from its arguments on device `c`. -/
def operands (c : Dev nD) : Operands where
  X := m ((c : Thread nD τ).loc main_arg0)
  W := takeW1 (m ((c : Thread nD τ).loc main_arg2)) (m ((c : Thread nD τ).loc main_arg1))
  b := takeB1 (m ((c : Thread nD τ).loc main_arg3)) (m ((c : Thread nD τ).loc main_arg1))
  U := takeW2 (m ((c : Thread nD τ).loc main_arg4)) (m ((c : Thread nD τ).loc main_arg1))

/-- The region's four input arrays hold those operands. -/
theorem staged (c : Dev nD) : Staged m c (operands m c) where
  x n d := congrFun (V_x m c) (ix2 n d)
  w d j := congrFun (V_w1 m c) (ix2 d j)
  b j := V_b1 m c j
  u j k := V_w2 m c j k

/-- THE RESULT at (n, k): the tiled logit. -/
theorem result_apply (c : Dev nD) (n : Fin 512) (k : Fin 10) :
    resultAfter m c (ix2 n k) = tiledLogit (operands m c) (m ((c : Thread nD τ).loc main_arg5)) n k := by
  rw [show resultAfter m c (ix2 n k) = _ from tail_apply m c (halves (operands m c)) (final (staged m c)) n k]
  rfl

end Cert.KernelIdeal.RunValue

end
-- ==== Proof.RefOps.lean ====
/-
  The reference program as a straight line.

  The reference computes the layer in one pass: it gathers the sampled columns of the hidden weights, of the hidden
  biases and of the output weights (three index-clamping gathers, each a chain of integer comparisons, a select and one
  gather guarded by an in-range mask), multiplies the batch by the gathered hidden weights, adds the gathered bias along
  the rows, rectifies against zero, multiplies by the transposed gathered output weights and adds the class bias along
  the rows. Its called functions are unfolded at their call sites; what is left is one list of eighty tensor
  operations, each writing a buffer of its own.
-/
import proofs.«159776_j51470888075432_2_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## The three gathers, each as one term

Gathering along an axis of length 262144 by a vector of 8192 signed indices, out-of-range entries filled: a negative index is first shifted up by the axis length (262144); the
shifted index, as a one-column table, drives the gather; and wherever the shifted index is not within `0 … 262143` the
gathered entry is replaced by a fill value. Each definition below is the chain of operations, composed, as a function
of the array gathered from and of the index vector. -/

/-- The sampled columns of the hidden weights: `W[:, ids]`, a [784, 8192] array. -/
def takeW1 (W : (⟨S784x262144, .f32⟩ : BufTy).Contents (Elt Ideal)) (ids : (⟨S8192, .i32⟩ : BufTy).Contents (Elt Ideal)) : (⟨S784x8192, .f32⟩ : BufTy).Contents (Elt Ideal) :=
  select
    (broadcastInDim S784x8192 ![1] bcast_S8192_S784x8192_1
      (Host.reduce IntOp.andi
        (andi
          (cmpi .sge (broadcastInDim S8192x1 ![0] bcast_S8192_S8192x1_0
        (select (cmpi .slt ids (broadcastInDim S8192 ![] bcast_S_S8192 (constantI S_ 32 0#32)))
          (addi ids (broadcastInDim S8192 ![] bcast_S_S8192 (constantI S_ 32 262144#32))) ids))
            (broadcastInDim S8192x1 ![] bcast_S_S8192x1 (constantI S_ 32 0#32)))
          (cmpi .sle (broadcastInDim S8192x1 ![0] bcast_S8192_S8192x1_0
        (select (cmpi .slt ids (broadcastInDim S8192 ![] bcast_S_S8192 (constantI S_ 32 0#32)))
          (addi ids (broadcastInDim S8192 ![] bcast_S_S8192 (constantI S_ 32 262144#32))) ids))
            (broadcastInDim S8192x1 ![0, 1] bcast_S1x1_S8192x1_0_1 (broadcastInDim S1x1 ![1] bcast_S1_S1x1_1 (constantI S1 32 262143#32)))))
        (constantI S_ 1 1#1) reducesTo_S8192x1_S8192_d1 h_S_))
    (Host.gather gather_S784x262144_S8192x1_S784x8192_0_1_n_n_1_1_7841 W
      (broadcastInDim S8192x1 ![0] bcast_S8192_S8192x1_0
        (select (cmpi .slt ids (broadcastInDim S8192 ![] bcast_S_S8192 (constantI S_ 32 0#32)))
          (addi ids (broadcastInDim S8192 ![] bcast_S_S8192 (constantI S_ 32 262144#32))) ids)))
    (broadcastInDim S784x8192 ![] bcast_S_S784x8192 (constant (F := Ideal) S_ .f32 0x7FC00000#32))

/-- The sampled entries of the hidden biases: `b[ids]`, 8192 numbers. -/
def takeB1 (b : (⟨S262144, .f32⟩ : BufTy).Contents (Elt Ideal)) (ids : (⟨S8192, .i32⟩ : BufTy).Contents (Elt Ideal)) : (⟨S8192, .f32⟩ : BufTy).Contents (Elt Ideal) :=
  select
    (Host.reduce IntOp.andi
        (andi
          (cmpi .sge (broadcastInDim S8192x1 ![0] bcast_S8192_S8192x1_0
        (select (cmpi .slt ids (broadcastInDim S8192 ![] bcast_S_S8192 (constantI S_ 32 0#32)))
          (addi ids (broadcastInDim S8192 ![] bcast_S_S8192 (constantI S_ 32 262144#32))) ids))
            (broadcastInDim S8192x1 ![] bcast_S_S8192x1 (constantI S_ 32 0#32)))
          (cmpi .sle (broadcastInDim S8192x1 ![0] bcast_S8192_S8192x1_0
        (select (cmpi .slt ids (broadcastInDim S8192 ![] bcast_S_S8192 (constantI S_ 32 0#32)))
          (addi ids (broadcastInDim S8192 ![] bcast_S_S8192 (constantI S_ 32 262144#32))) ids))
            (broadcastInDim S8192x1 ![0, 1] bcast_S1x1_S8192x1_0_1 (broadcastInDim S1x1 ![1] bcast_S1_S1x1_1 (constantI S1 32 262143#32)))))
        (constantI S_ 1 1#1) reducesTo_S8192x1_S8192_d1 h_S_)
    (Host.gather gather_S262144_S8192x1_S8192_n_0_n_n_0_1_1 b
      (broadcastInDim S8192x1 ![0] bcast_S8192_S8192x1_0
        (select (cmpi .slt ids (broadcastInDim S8192 ![] bcast_S_S8192 (constantI S_ 32 0#32)))
          (addi ids (broadcastInDim S8192 ![] bcast_S_S8192 (constantI S_ 32 262144#32))) ids)))
    (broadcastInDim S8192 ![] bcast_S_S8192 (constant (F := Ideal) S_ .f32 0x7FC00000#32))

/-- The sampled columns of the output weights: `W[:, ids]`, a [10, 8192] array. -/
def takeW2 (W : (⟨S10x262144, .f32⟩ : BufTy).Contents (Elt Ideal)) (ids : (⟨S8192, .i32⟩ : BufTy).Contents (Elt Ideal)) : (⟨S10x8192, .f32⟩ : BufTy).Contents (Elt Ideal) :=
  select
    (broadcastInDim S10x8192 ![1] bcast_S8192_S10x8192_1
      (Host.reduce IntOp.andi
        (andi
          (cmpi .sge (broadcastInDim S8192x1 ![0] bcast_S8192_S8192x1_0
        (select (cmpi .slt ids (broadcastInDim S8192 ![] bcast_S_S8192 (constantI S_ 32 0#32)))
          (addi ids (broadcastInDim S8192 ![] bcast_S_S8192 (constantI S_ 32 262144#32))) ids))
            (broadcastInDim S8192x1 ![] bcast_S_S8192x1 (constantI S_ 32 0#32)))
          (cmpi .sle (broadcastInDim S8192x1 ![0] bcast_S8192_S8192x1_0
        (select (cmpi .slt ids (broadcastInDim S8192 ![] bcast_S_S8192 (constantI S_ 32 0#32)))
          (addi ids (broadcastInDim S8192 ![] bcast_S_S8192 (constantI S_ 32 262144#32))) ids))
            (broadcastInDim S8192x1 ![0, 1] bcast_S1x1_S8192x1_0_1 (broadcastInDim S1x1 ![1] bcast_S1_S1x1_1 (constantI S1 32 262143#32)))))
        (constantI S_ 1 1#1) reducesTo_S8192x1_S8192_d1 h_S_))
    (Host.gather gather_S10x262144_S8192x1_S10x8192_0_1_n_n_1_1_101 W
      (broadcastInDim S8192x1 ![0] bcast_S8192_S8192x1_0
        (select (cmpi .slt ids (broadcastInDim S8192 ![] bcast_S_S8192 (constantI S_ 32 0#32)))
          (addi ids (broadcastInDim S8192 ![] bcast_S_S8192 (constantI S_ 32 262144#32))) ids)))
    (broadcastInDim S10x8192 ![] bcast_S_S10x8192 (constant (F := Ideal) S_ .f32 0x7FC00000#32))

/-- The whole layer as one term over the three gathers: the batch times the gathered hidden weights, plus the gathered
    bias along every row, rectified against zero, times the transposed gathered output weights, plus the class bias along
    every row. -/
def result (X : (⟨S512x784, .f32⟩ : BufTy).Contents (Elt Ideal)) (ids : (⟨S8192, .i32⟩ : BufTy).Contents (Elt Ideal)) (W1 : (⟨S784x262144, .f32⟩ : BufTy).Contents (Elt Ideal))
    (b1 : (⟨S262144, .f32⟩ : BufTy).Contents (Elt Ideal)) (W2 : (⟨S10x262144, .f32⟩ : BufTy).Contents (Elt Ideal)) (b2 : (⟨S10, .f32⟩ : BufTy).Contents (Elt Ideal)) : (⟨S512x10, .f32⟩ : BufTy).Contents (Elt Ideal) :=
  addf
    (Host.dotGeneral (F := Ideal) (φ₁ := .f32) (φ₂ := .f32) dot_S512x8192_S8192x10_S512x10_1_0_0_1_n_n none
      (maximumf
        (addf
          (Host.dotGeneral (F := Ideal) (φ₁ := .f32) (φ₂ := .f32) dot_S512x784_S784x8192_S512x8192_1_0_0_1_n_n none X (takeW1 W1 ids))
          (broadcastInDim S512x8192 ![0, 1] bcast_S1x8192_S512x8192_0_1
            (broadcastInDim S1x8192 ![1] bcast_S8192_S1x8192_1 (takeB1 b1 ids))))
        (broadcastInDim S512x8192 ![] bcast_S_S512x8192 (constant (F := Ideal) S_ .f32 0x00000000#32)))
      (transpose (α := Ideal .f32) S8192x10 [1, 0] (takeW2 W2 ids) transposes_S10x8192_S8192x10_1_0))
    (broadcastInDim S512x10 ![0, 1] bcast_S1x10_S512x10_0_1 (broadcastInDim S1x10 ![1] bcast_S10_S1x10_1 b2))

/-! ## The program as a list of operations -/

variable {F : FTy → Type} [FloatOps F]

/-- The eighty operations, in program order: the gather of the hidden weights (23), the gather of the hidden biases (22),
    the first product, the bias broadcast twice and added (4), the rectifier (3), the gather of the output weights (23),
    its transpose, the second product, the class bias broadcast twice and added (5). -/
abbrev ops : List (HloOp τ sig (Elt F)) :=
  [
    TRef.nullary main_call0.c (constantI S_ 32 0#32),
    TRef.unary main_call0.c main_call0.v0 (broadcastInDim S8192 ![] bcast_S_S8192),
    TRef.binary (.of main_arg1 : TRef sig ⟨S8192, .i32⟩) main_call0.v0 main_call0.v1 (cmpi .slt),
    TRef.nullary main_call0.c_0 (constantI S_ 32 262144#32),
    TRef.unary main_call0.c_0 main_call0.v2 (broadcastInDim S8192 ![] bcast_S_S8192),
    TRef.binary (.of main_arg1 : TRef sig ⟨S8192, .i32⟩) main_call0.v2 main_call0.v3 addi,
    TRef.ternary main_call0.v1 main_call0.v3 (.of main_arg1 : TRef sig ⟨S8192, .i32⟩) main_call0.call0.v0 select,
    TRef.unary main_call0.call0.v0 main_call0.v5 (broadcastInDim S8192x1 ![0] bcast_S8192_S8192x1_0),
    TRef.nullary main_call0.c_1 (constantI S1 32 262143#32),
    TRef.nullary main_call0.c_2 (constantI S_ 32 0#32),
    TRef.unary main_call0.c_2 main_call0.v6 (broadcastInDim S8192x1 ![] bcast_S_S8192x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8192x1 ![0, 1] bcast_S1x1_S8192x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x1_S8192_d1 h_S_),
    TRef.binary (.of main_arg2 : TRef sig ⟨S784x262144, .f32⟩) main_call0.v5 main_call0.v13 (fun x i => Host.gather gather_S784x262144_S8192x1_S784x8192_0_1_n_n_1_1_7841 x i),
    TRef.unary main_call0.v12 main_call0.v14 (broadcastInDim S784x8192 ![1] bcast_S8192_S784x8192_1),
    TRef.nullary main_call0.cst (constant S_ .f32 0x7FC00000#32),
    TRef.unary main_call0.cst main_call0.v15 (broadcastInDim S784x8192 ![] bcast_S_S784x8192),
    TRef.ternary main_call0.v14 main_call0.v13 main_call0.v15 main_call0.v16 select,
    TRef.nullary main_call1.c (constantI S_ 32 0#32),
    TRef.unary main_call1.c main_call1.v0 (broadcastInDim S8192 ![] bcast_S_S8192),
    TRef.binary (.of main_arg1 : TRef sig ⟨S8192, .i32⟩) main_call1.v0 main_call1.v1 (cmpi .slt),
    TRef.nullary main_call1.c_0 (constantI S_ 32 262144#32),
    TRef.unary main_call1.c_0 main_call1.v2 (broadcastInDim S8192 ![] bcast_S_S8192),
    TRef.binary (.of main_arg1 : TRef sig ⟨S8192, .i32⟩) main_call1.v2 main_call1.v3 addi,
    TRef.ternary main_call1.v1 main_call1.v3 (.of main_arg1 : TRef sig ⟨S8192, .i32⟩) main_call1.call0.v0 select,
    TRef.unary main_call1.call0.v0 main_call1.v5 (broadcastInDim S8192x1 ![0] bcast_S8192_S8192x1_0),
    TRef.nullary main_call1.c_1 (constantI S1 32 262143#32),
    TRef.nullary main_call1.c_2 (constantI S_ 32 0#32),
    TRef.unary main_call1.c_2 main_call1.v6 (broadcastInDim S8192x1 ![] bcast_S_S8192x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S8192x1 ![0, 1] bcast_S1x1_S8192x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S8192x1_S8192_d1 h_S_),
    TRef.binary (.of main_arg3 : TRef sig ⟨S262144, .f32⟩) main_call1.v5 main_call1.v13 (fun x i => Host.gather gather_S262144_S8192x1_S8192_n_0_n_n_0_1_1 x i),
    TRef.nullary main_call1.cst (constant S_ .f32 0x7FC00000#32),
    TRef.unary main_call1.cst main_call1.v14 (broadcastInDim S8192 ![] bcast_S_S8192),
    TRef.ternary main_call1.v12 main_call1.v13 main_call1.v14 main_call1.v15 select,
    binary main_arg0 main_v0 main_v2 ((fun l r => Host.dotGeneral dot_S512x784_S784x8192_S512x8192_1_0_0_1_n_n none l r) : (⟨S512x784, .f32⟩ : BufTy).Contents (Elt F) → (⟨S784x8192, .f32⟩ : BufTy).Contents (Elt F) → (⟨S512x8192, .f32⟩ : BufTy).Contents (Elt F)),
    unary main_v1 main_v3 (broadcastInDim S1x8192 ![1] bcast_S8192_S1x8192_1 : (⟨S8192, .f32⟩ : BufTy).Contents (Elt F) → (⟨S1x8192, .f32⟩ : BufTy).Contents (Elt F)),
    unary main_v3 main_v4 (broadcastInDim S512x8192 ![0, 1] bcast_S1x8192_S512x8192_0_1 : (⟨S1x8192, .f32⟩ : BufTy).Contents (Elt F) → (⟨S512x8192, .f32⟩ : BufTy).Contents (Elt F)),
    binary main_v2 main_v4 main_v5 (addf : (⟨S512x8192, .f32⟩ : BufTy).Contents (Elt F) → (⟨S512x8192, .f32⟩ : BufTy).Contents (Elt F) → (⟨S512x8192, .f32⟩ : BufTy).Contents (Elt F)),
    TRef.nullary main_call2.cst (constant S_ .f32 0x00000000#32),
    TRef.unary main_call2.cst main_call2.v0 (broadcastInDim S512x8192 ![] bcast_S_S512x8192),
    TRef.binary (.of main_v5 : TRef sig ⟨S512x8192, .f32⟩) main_call2.v0 main_call2.v1 maximumf,
    TRef.nullary main_call3.c (constantI S_ 32 0#32),
    TRef.unary main_call3.c main_call3.v0 (broadcastInDim S8192 ![] bcast_S_S8192),
    TRef.binary (.of main_arg1 : TRef sig ⟨S8192, .i32⟩) main_call3.v0 main_call3.v1 (cmpi .slt),
    TRef.nullary main_call3.c_0 (constantI S_ 32 262144#32),
    TRef.unary main_call3.c_0 main_call3.v2 (broadcastInDim S8192 ![] bcast_S_S8192),
    TRef.binary (.of main_arg1 : TRef sig ⟨S8192, .i32⟩) main_call3.v2 main_call3.v3 addi,
    TRef.ternary main_call3.v1 main_call3.v3 (.of main_arg1 : TRef sig ⟨S8192, .i32⟩) main_call3.call0.v0 select,
    TRef.unary main_call3.call0.v0 main_call3.v5 (broadcastInDim S8192x1 ![0] bcast_S8192_S8192x1_0),
    TRef.nullary main_call3.c_1 (constantI S1 32 262143#32),
    TRef.nullary main_call3.c_2 (constantI S_ 32 0#32),
    TRef.unary main_call3.c_2 main_call3.v6 (broadcastInDim S8192x1 ![] bcast_S_S8192x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S8192x1 ![0, 1] bcast_S1x1_S8192x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S8192x1_S8192_d1 h_S_),
    TRef.binary (.of main_arg4 : TRef sig ⟨S10x262144, .f32⟩) main_call3.v5 main_call3.v13 (fun x i => Host.gather gather_S10x262144_S8192x1_S10x8192_0_1_n_n_1_1_101 x i),
    TRef.unary main_call3.v12 main_call3.v14 (broadcastInDim S10x8192 ![1] bcast_S8192_S10x8192_1),
    TRef.nullary main_call3.cst (constant S_ .f32 0x7FC00000#32),
    TRef.unary main_call3.cst main_call3.v15 (broadcastInDim S10x8192 ![] bcast_S_S10x8192),
    TRef.ternary main_call3.v14 main_call3.v13 main_call3.v15 main_call3.v16 select,
    unary main_v7 main_v8 ((transpose S8192x10 [1, 0] · transposes_S10x8192_S8192x10_1_0) : (⟨S10x8192, .f32⟩ : BufTy).Contents (Elt F) → (⟨S8192x10, .f32⟩ : BufTy).Contents (Elt F)),
    binary main_v6 main_v8 main_v9 ((fun l r => Host.dotGeneral dot_S512x8192_S8192x10_S512x10_1_0_0_1_n_n none l r) : (⟨S512x8192, .f32⟩ : BufTy).Contents (Elt F) → (⟨S8192x10, .f32⟩ : BufTy).Contents (Elt F) → (⟨S512x10, .f32⟩ : BufTy).Contents (Elt F)),
    unary main_arg5 main_v10 (broadcastInDim S1x10 ![1] bcast_S10_S1x10_1 : (⟨S10, .f32⟩ : BufTy).Contents (Elt F) → (⟨S1x10, .f32⟩ : BufTy).Contents (Elt F)),
    unary main_v10 main_v11 (broadcastInDim S512x10 ![0, 1] bcast_S1x10_S512x10_0_1 : (⟨S1x10, .f32⟩ : BufTy).Contents (Elt F) → (⟨S512x10, .f32⟩ : BufTy).Contents (Elt F)),
    binary main_v9 main_v11 main_v12 (addf : (⟨S512x10, .f32⟩ : BufTy).Contents (Elt F) → (⟨S512x10, .f32⟩ : BufTy).Contents (Elt F) → (⟨S512x10, .f32⟩ : BufTy).Contents (Elt F)) ]

-- eighty binds re-associated: the rewrite under the chain recurses once per statement
set_option maxRecDepth 4096 in
set_option maxHeartbeats 4000000 in
/-- The program is that straight line: the called functions unfolded at their calls and sequencing re-associated. -/
theorem main_eq (c : Dev nD) : main (F := F) c = seq ops := by
  simp only [main, fn_take.body, fn_take_0.body, fn_take_1.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches tensor buffers only. -/
theorem ops_sub : (ops : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    nullary_bufs_sub .., unary_bufs_sub .., ternary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., unary_bufs_sub .., binary_bufs_sub .., unary_bufs_sub ..,
    unary_bufs_sub .., binary_bufs_sub ..⟩

end Cert.ReferenceIdeal.RefValue

end
-- ==== Proof.RefRun.lean ====
/-
  The reference program's run.

  A straight line of tensor operations, each writing a buffer of its own, runs to its end from any memory; afterwards
  every buffer holds the composition of the operations that lead to it, applied to the contents the arguments had at
  the start, and the arguments — which no operation writes — hold what they held. Read at the output buffer, that
  composition is the layer as one term over the three gathers.
-/
import proofs.«159776_j51470888075432_2_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

-- the reduction and the gathers are folds and searches over their operands' entries; the equation never looks inside them
attribute [local irreducible] Host.reduce Host.gather in
set_option maxRecDepth 8192 in
set_option maxHeartbeats 1600000 in
/-- After the eighty operations the output buffer holds the layer's term of the arguments' contents. -/
theorem out_eq (V : Valuation τ sig (Elt Ideal)) :
    after (ops (F := Ideal)) V (Proc.devRef .tc main_v12)
      = result (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  after_results_simp
  rfl

attribute [local irreducible] Host.reduce Host.gather in
set_option maxRecDepth 8192 in
set_option maxHeartbeats 1600000 in
/-- No operation writes argument 0: it holds what it held. -/
theorem arg0_eq (V : Valuation τ sig (Elt Ideal)) :
    after (ops (F := Ideal)) V (Proc.devRef .tc main_arg0) = V (Proc.devRef .tc main_arg0) := by
  after_results_simp

attribute [local irreducible] Host.reduce Host.gather in
set_option maxRecDepth 8192 in
set_option maxHeartbeats 1600000 in
/-- No operation writes argument 1: it holds what it held. -/
theorem arg1_eq (V : Valuation τ sig (Elt Ideal)) :
    after (ops (F := Ideal)) V (Proc.devRef .tc main_arg1) = V (Proc.devRef .tc main_arg1) := by
  after_results_simp

attribute [local irreducible] Host.reduce Host.gather in
set_option maxRecDepth 8192 in
set_option maxHeartbeats 1600000 in
/-- No operation writes argument 2: it holds what it held. -/
theorem arg2_eq (V : Valuation τ sig (Elt Ideal)) :
    after (ops (F := Ideal)) V (Proc.devRef .tc main_arg2) = V (Proc.devRef .tc main_arg2) := by
  after_results_simp

attribute [local irreducible] Host.reduce Host.gather in
set_option maxRecDepth 8192 in
set_option maxHeartbeats 1600000 in
/-- No operation writes argument 3: it holds what it held. -/
theorem arg3_eq (V : Valuation τ sig (Elt Ideal)) :
    after (ops (F := Ideal)) V (Proc.devRef .tc main_arg3) = V (Proc.devRef .tc main_arg3) := by
  after_results_simp

attribute [local irreducible] Host.reduce Host.gather in
set_option maxRecDepth 8192 in
set_option maxHeartbeats 1600000 in
/-- No operation writes argument 4: it holds what it held. -/
theorem arg4_eq (V : Valuation τ sig (Elt Ideal)) :
    after (ops (F := Ideal)) V (Proc.devRef .tc main_arg4) = V (Proc.devRef .tc main_arg4) := by
  after_results_simp

attribute [local irreducible] Host.reduce Host.gather in
set_option maxRecDepth 8192 in
set_option maxHeartbeats 1600000 in
/-- No operation writes argument 5: it holds what it held. -/
theorem arg5_eq (V : Valuation τ sig (Elt Ideal)) :
    after (ops (F := Ideal)) V (Proc.devRef .tc main_arg5) = V (Proc.devRef .tc main_arg5) := by
  after_results_simp

/-- On every device, from any memory with zero counters: every weakly fair execution of the program terminates with the
    output buffer at the layer's term of the arguments' launch contents, and the six arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v12) = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v12).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.ReferenceIdeal.RefValue

end
-- ==== Proof.RefRead.lean ====
/-
  The reference's value read at an index.

  At row `n` and class `k` the layer's term is a sum over the 8192 sampled units of a rectified inner product times an
  output weight, plus the class bias: each matrix product read at an index is the sum over its contracted coordinate, a
  vector laid along every row reads the vector's entry, the splat of the zero word reads zero, and a transposed matrix
  reads the matrix at the swapped pair. That is the specification's logit over the three gathered arrays.
-/
import proofs.«159776_j51470888075432_2_alg».proof.Proof.RefOps
import proofs.«159776_j51470888075432_2_alg».proof.Proof.SampledMlp
import Idealize.ShloMosaic.Lib.StackMember
import Idealize.ShloMosaic.Lib.IdealHost
import Idealize.ShloMosaic.Lib.ValueLayout

noncomputable section

namespace Cert.ReferenceIdeal.RefValue

open Cert.ReferenceIdeal Cert.ReferenceIdeal.Gen Idealize.ShloMosaic Idealize.ShloMosaic.ValueIdx

/-- The first product at (n, j): the inner product of row `n` of the batch with column `j` of the gathered weights. -/
theorem dotHidden_apply (A : FVec Ideal S512x784 .f32) (B : FVec Ideal S784x8192 .f32) (n : Fin 512) (j : Fin 8192) :
    Host.dotGeneral (F := Ideal) dot_S512x784_S784x8192_S512x8192_1_0_0_1_n_n none A B (ix2 n j)
      = ∑ d : Fin 784, A (ix2 n d) * B (ix2 d j) :=
  StackMember.dotGeneral_plain_apply (m := 512) (n := 8192) (k := 784) none A B n j

/-- The second product at (n, k): the inner product of row `n` of the activations with column `k` of the transposed
    output weights. -/
theorem dotOut_apply (A : FVec Ideal S512x8192 .f32) (B : FVec Ideal S8192x10 .f32) (n : Fin 512) (k : Fin 10) :
    Host.dotGeneral (F := Ideal) dot_S512x8192_S8192x10_S512x10_1_0_0_1_n_n none A B (ix2 n k)
      = ∑ j : Fin 8192, A (ix2 n j) * B (ix2 j k) :=
  StackMember.dotGeneral_plain_apply (m := 512) (n := 10) (k := 8192) none A B n k

/-- A vector of 8192 entries laid along each of 512 rows reads, at (n, j), its entry `j`. -/
theorem rowsHidden_apply (v : (S8192 : Shape).Idx → EReal) (n : Fin 512) (j : Fin 8192) :
    broadcastInDim S512x8192 ![0, 1] bcast_S1x8192_S512x8192_0_1 (broadcastInDim S1x8192 ![1] bcast_S8192_S1x8192_1 v) (ix2 n j)
      = v (ix1 j) := by
  rw [broadcastInDim_oneRow_apply (m := 512) (n := 8192)]
  refine broadcastInDim_apply ![1] bcast_S8192_S1x8192_1 v (ix2 (0 : Fin 1) j) (ix1 j) fun a => ?_
  match a with
  | ⟨0, _⟩ =>
    show j.val = if (8192 : ℕ) = 1 then 0 else j.val
    rw [if_neg (by decide)]

/-- A vector of 10 entries laid along each of 512 rows reads, at (n, k), its entry `k`. -/
theorem rowsOut_apply (v : (S10 : Shape).Idx → EReal) (n : Fin 512) (k : Fin 10) :
    broadcastInDim S512x10 ![0, 1] bcast_S1x10_S512x10_0_1 (broadcastInDim S1x10 ![1] bcast_S10_S1x10_1 v) (ix2 n k)
      = v (ix1 k) := by
  rw [broadcastInDim_oneRow_apply (m := 512) (n := 10)]
  refine broadcastInDim_apply ![1] bcast_S10_S1x10_1 v (ix2 (0 : Fin 1) k) (ix1 k) fun a => ?_
  match a with
  | ⟨0, _⟩ =>
    show k.val = if (10 : ℕ) = 1 then 0 else k.val
    rw [if_neg (by decide)]

/-- The splat of the zero word reads zero everywhere. -/
theorem zeroSplat_apply (i : (S512x8192 : Shape).Idx) :
    broadcastInDim S512x8192 ![] bcast_S_S512x8192 (constant (F := Ideal) S_ .f32 0x00000000#32) i = (0 : EReal) := by
  rw [broadcastInDim_scalar_apply]
  exact Ideal.ofBits_zero_f32

/-- The layer's term at row `n` and class `k` is the specification's logit over the three gathered arrays. -/
theorem result_apply (X : (⟨S512x784, .f32⟩ : BufTy).Contents (Elt Ideal)) (ids : (⟨S8192, .i32⟩ : BufTy).Contents (Elt Ideal))
    (W1 : (⟨S784x262144, .f32⟩ : BufTy).Contents (Elt Ideal)) (b1 : (⟨S262144, .f32⟩ : BufTy).Contents (Elt Ideal))
    (W2 : (⟨S10x262144, .f32⟩ : BufTy).Contents (Elt Ideal)) (b2 : (⟨S10, .f32⟩ : BufTy).Contents (Elt Ideal))
    (n : Fin 512) (k : Fin 10) :
    result X ids W1 b1 W2 b2 (ValueIdx.ix2 n k)
      = Cert.SampledMlp.logit ⟨X, takeW1 W1 ids, takeB1 b1 ids, takeW2 W2 ids⟩ b2 n k := by
  delta result Cert.SampledMlp.logit
  rw [addf_apply, dotOut_apply, rowsOut_apply]
  refine congrArg (· + b2 (ix1 k)) (Finset.sum_congr rfl fun j _ => ?_)
  delta Cert.SampledMlp.contribution
  rw [maximumf_apply, addf_apply, dotHidden_apply, rowsHidden_apply, zeroSplat_apply, transpose_ix2_apply]

end Cert.ReferenceIdeal.RefValue

end
-- ==== Proof.lean ====
/-
  A two-layer perceptron evaluated on 8192 sampled hidden units: for a batch row n and a class k,

      out (n, k) = ∑ j < 8192, max (∑ d < 784, X (n, d) * W1 (d, ids j) + b1 (ids j)) 0 * W2 (k, ids j)  +  b2 k.

  Both programs first gather the sampled columns of W1, b1 and W2 by the same chain of host operations on the same
  indices, so the gathered arrays are the same arrays on the two sides and are never looked into. One program then takes
  the sum over the 8192 units at once. The other walks the units in eight tiles of 1024 on a 2 × 4 grid, keeping for each
  half of the units a running total that starts from zero, writes each half's total out after its fourth tile, and lets
  the host add the two halves from zero before the class bias. Over the extended reals addition is commutative and
  associative with zero neutral, and nothing else is needed: the two groupings of the sum are equal for all entries,
  finite or not, so the precondition is never opened. Changing a value's float format is the identity on exact values.

  The word-level kernel program and its idealization are the same text (no operation was rewritten), so there is
  nothing to preserve; the three programs' frames are their runs with the results forgotten.
-/
import proofs.«159776_j51470888075432_2_alg».proof.Defs
import proofs.«159776_j51470888075432_2_alg».proof.Proof.Gen.Kernel
import proofs.«159776_j51470888075432_2_alg».proof.Proof.Gen.Kernel.Frame
import proofs.«159776_j51470888075432_2_alg».proof.Proof.Gen.KernelIdeal
import proofs.«159776_j51470888075432_2_alg».proof.Proof.Gen.KernelIdeal.Frame
import proofs.«159776_j51470888075432_2_alg».proof.Proof.Gen.ReferenceIdeal
import proofs.«159776_j51470888075432_2_alg».proof.Proof.Gen.Pre_finite_inputs
import proofs.«159776_j51470888075432_2_alg».proof.Proof.SampledMlp
import proofs.«159776_j51470888075432_2_alg».proof.Proof.KResult
import proofs.«159776_j51470888075432_2_alg».proof.Proof.RefRun
import proofs.«159776_j51470888075432_2_alg».proof.Proof.RefRead
import Idealize.ShloMosaic.Adequacy
import Idealize.ShloMosaic.Init

noncomputable section

namespace Cert.Proof

open Idealize.ShloMosaic Idealize.ShloMosaic.TcCoe Idealize.SL.Sem Idealize.ShloMosaic.ValueIdx

/-- The gathered hidden weights are one array on the two sides: the same operations on the same arguments. -/
theorem gathered_hidden : Cert.KernelIdeal.HostValue.takeW1 = Cert.ReferenceIdeal.RefValue.takeW1 := rfl
/-- So are the gathered hidden biases … -/
theorem gathered_bias : Cert.KernelIdeal.HostValue.takeB1 = Cert.ReferenceIdeal.RefValue.takeB1 := rfl
/-- … and the gathered output weights. -/
theorem gathered_output : Cert.KernelIdeal.HostValue.takeW2 = Cert.ReferenceIdeal.RefValue.takeW2 := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.RefValue.run m ρ)

/-- No operation was rewritten between the two kernel programs. -/
theorem preserves : Cert.preserves_Kernel_KernelIdeal := trivial

/-- From arguments that agree, the tiled program's result and the reference's are, entry by entry, the tiled and the
    whole grouping of one sum over the same gathered arrays. -/
theorem algebraic : Cert.algebraic_KernelIdeal_ReferenceIdeal := by
  intro m ρ m' ρ' _ hagree
  refine ⟨fun c => Cert.KernelIdeal.RunValue.resultAfter m c, Cert.KernelIdeal.RunValue.run (F := Ideal) m ρ, ?_⟩
  refine (θ_run Cert.ReferenceIdeal.defs _ _).mono (fun _ h c => ⟨(h c).1.trans ?_, (h c).2⟩) (Cert.ReferenceIdeal.RefValue.run m' ρ')
  obtain ⟨a0, a1, a2, a3, a4, a5⟩ := hagree c
  rw [a0, a1, a2, a3, a4, a5]
  funext i
  obtain ⟨n, k, rfl⟩ : ∃ (n : Fin 512) (k : Fin 10), i = ix2 n k := ⟨i 0, i 1, eq_ix2 i⟩
  rw [Cert.ReferenceIdeal.RefValue.result_apply]
  refine Eq.trans ?_ (Cert.KernelIdeal.RunValue.result_apply m c n k).symm
  rw [Cert.SampledMlp.tiledLogit_eq, ← gathered_hidden, ← gathered_bias, ← gathered_output]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
